-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x4096 : Shape := ⟨2, ![2048, 4096]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S8192x2048 .f32) (main_arg2 : FVec F S8192x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S2048x4096 : Shape := ⟨2, ![2048, 4096]⟩
abbrev S2048 : Shape := ⟨1, ![2048]⟩
abbrev S2048x2048 : Shape := ⟨2, ![2048, 2048]⟩
abbrev S1x2048 : Shape := ⟨2, ![1, 2048]⟩
abbrev S4x2048 : Shape := ⟨2, ![4, 2048]⟩
abbrev S512x2048 : Shape := ⟨2, ![512, 2048]⟩
abbrev S512x256 : Shape := ⟨2, ![512, 256]⟩
abbrev S2048x256 : Shape := ⟨2, ![2048, 256]⟩
abbrev S4x256 : Shape := ⟨2, ![4, 256]⟩
abbrev S1x256 : Shape := ⟨2, ![1, 256]⟩

abbrev nBuf : Space → Nat
  | .hbm => 40
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x2048, .bf16⟩
  | .hbm, ⟨12, _⟩ => ⟨S8192x2048, .bf16⟩
  | .hbm, ⟨13, _⟩ => ⟨S2048x4096, .bf16⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S2048x2048, .bf16⟩
  | .hbm, ⟨18, _⟩ => ⟨S2048x4096, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x4096, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x2048, .bf16⟩
  | .hbm, ⟨28, _⟩ => ⟨S2048x4096, .bf16⟩
  | .hbm, ⟨29, _⟩ => ⟨S2048x2048, .bf16⟩
  | .hbm, ⟨30, _⟩ => ⟨S2048x2048, .bf16⟩
  | .hbm, ⟨31, _⟩ => ⟨S2048x2048, .bf16⟩
  | .hbm, ⟨32, _⟩ => ⟨S2048x2048, .bf16⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S4x2048, .f32⟩
  | .hbm, ⟨38, _⟩ => ⟨S8192x2048, .f32⟩
  | .hbm, ⟨39, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S4x256, .f32⟩
  | .local _ .vmem, ⟨23, _⟩ => ⟨S4x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S4x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  bitsLt_bf16_f32 : FTy.bits .bf16 < FTy.bits .f32
  slices_S2048x4096_S2048x2048_0_0 : S2048x4096.Slices ![0, 0] S2048x2048
  transposes_S2048x2048_S2048x2048_1_0 : S2048x2048.Transposes [1, 0] S2048x2048
  slices_S2048x4096_S2048x2048_0_2048 : S2048x4096.Slices ![0, 2048] S2048x2048
  bcast_S2048_S1x2048_1 : S2048.BroadcastsInDim S1x2048 (![1] : Fin 1 → Fin S1x2048.rank)
  concatenates_S1x2048_S1x2048_S1x2048_S1x2048_S4x2048_d0 : Shape.Concatenates [S1x2048, S1x2048, S1x2048, S1x2048] S4x2048 0
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S4x256_S1x256_0_0 : ∀ a, (![0, 0] : Fin 2 → Nat) a + S1x256.size a ≤ S4x256.size a
  h_S1x256 : 0 < S1x256.numel
  shapeCasts_S1x256_S1x256 : S1x256.ShapeCasts S1x256
  broadcasts_S1x256_S512x256 : S1x256.Broadcasts S512x256
  inb_S4x256_S1x256_1_0 : ∀ a, (![1, 0] : Fin 2 → Nat) a + S1x256.size a ≤ S4x256.size a
  inb_S4x256_S1x256_2_0 : ∀ a, (![2, 0] : Fin 2 → Nat) a + S1x256.size a ≤ S4x256.size a
  inb_S4x256_S1x256_3_0 : ∀ a, (![3, 0] : Fin 2 → Nat) a + S1x256.size a ≤ S4x256.size a
  inb_S512x256_S512x256_0_0 : ∀ a, (![0, 0] : Fin 2 → Nat) a + S512x256.size a ≤ S512x256.size a
  h_S512x256 : 0 < S512x256.numel
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x2048.size a
  hwx0_2 : ∀ i : grid0.Coords, EltTy.bits .f32 = 32 ∨ (Rect.block (s := S8192x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .bf16 = 32 ∨ (Rect.block (s := S2048x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .bf16 = 32 ∨ (Rect.block (s := S2048x2048) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .bf16 = 32 ∨ (Rect.block (s := S2048x2048) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .bf16 = 32 ∨ (Rect.block (s := S2048x2048) S2048x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .bf16 = 32 ∨ (Rect.block (s := S2048x2048) S2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .bf16 = 32 ∨ (Rect.block (s := S2048x2048) S2048x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x256.size a ≤ S4x2048.size a
  hwx0_11 : ∀ i : grid0.Coords, EltTy.bits .f32 = 32 ∨ (Rect.block (s := S4x2048) S4x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S8192x2048.size a
  hwx0_12 : ∀ i : grid0.Coords, EltTy.bits .f32 = 32 ∨ (Rect.block (s := S8192x2048) S512x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x256.size a ≤ S8192x2048.size a
  hwx0_13 : ∀ i : grid0.Coords, EltTy.bits .f32 = 32 ∨ (Rect.block (s := S8192x2048) S512x256.size (cc0_transform_13 i) (hinb0_13 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v19) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v21) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v26) S4x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v27_0) S512x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v27_1) S512x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S8192 : Shape := ⟨1, ![8192]⟩
abbrev S4096x8192 : Shape := ⟨2, ![4096, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x4096_S4096x8192_S8192x8192_1_0_0_1_n_n_wf : DotDims.WF S8192x4096 S4096x8192 S8192x8192 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.KernelFrame.lean ====
/-
  The frame of the LSTM cell kernel as printed word for word (the program read at the bit-exact instance; the
  statement below holds at any instance of the float operations): run on every TensorCore from any memory, the program terminates, nothing
  faults, and its eleven argument arrays end as they began.

  The program is a stretch of host operations (casts, slices and transposes of the weights, and the four biases
  stacked into one [4, 2048] array), then one pipelined region over a 16 × 8 grid. At a grid point the pipeline
  hands the body twelve input blocks — a [512, 2048] block of the input and of the previous hidden state, a
  [512, 256] block of the previous cell state, eight [2048, 256] weight blocks and a [4, 256] block of the stacked
  biases — and two [512, 256] output blocks. The body only loads its inputs whole (each bias row as a [1, 256] slice)
  and stores each output block whole, once; so what it leaves in an output block is a function of the twelve input
  blocks alone (`outH`, `outC`), it keeps nothing between points, and the region's invariant is the pipeline's own.
  None of the host operations writes an argument array, and the region writes only its two result arrays.
-/
import proofs.«152223_j49160195670661_2_alg».proof.Proof.Gen.Kernel.Launch
import proofs.«152223_j49160195670661_2_alg».proof.Proof.Gen.Kernel.Skeleton
import proofs.«152223_j49160195670661_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s TensorCore buffers after the host operations that precede the region. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 1: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 2: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 3: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 4: the region finds it as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 5: the region finds it as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 6: the region finds it as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 7: the region finds it as launched. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 8: the region finds it as launched. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 9: the region finds it as launched. -/
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 10: the region finds it as launched. -/
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))

/-! ## The blocks the body is handed -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/- An input window's current staging buffer holds its block at every point, whether the pipeline fetched it there
   or kept it from the point before (the block index not having moved): for any proof data over these arrays whose
   body leaves the block in place. -/
theorem inputBlock0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem inputBlock1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem inputBlock2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem inputBlock3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem inputBlock4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem inputBlock5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem inputBlock6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem inputBlock7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem inputBlock8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem inputBlock9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem inputBlock10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem inputBlock11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's -/

/-- From a run that ends with every array of the pipeline at what the proof data say and every other unscoped buffer
    as the region found it, the argument arrays end as launched: the previous cell state is an input window's array,
    the other ten arguments are read by host operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_arg0 m c),
      ((h c).2 main_arg1 (Pipeline.mem_restRefs_of main_arg1 (by decide) (by decide))).trans (V_arg1 m c),
      ((h c).1 2).trans (((dats 0 c).arrAt_in 2 rfl _).trans ((hA c 2).trans (V_arg2 m c))),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c)⟩) h

/-! ## The body's accesses -/

abbrev rAct : Rect S512x2048 := Rect.unit (s := S512x2048) ![0, 0] S512x2048.size inb_S512x2048_S512x2048_0_0
abbrev rWgt : Rect S2048x256 := Rect.unit (s := S2048x256) ![0, 0] S2048x256.size inb_S2048x256_S2048x256_0_0
abbrev rOut : Rect S512x256 := Rect.unit (s := S512x256) ![0, 0] S512x256.size inb_S512x256_S512x256_0_0
abbrev rBias0 : Rect S4x256 := Rect.unit (s := S4x256) ![0, 0] S1x256.size inb_S4x256_S1x256_0_0
abbrev rBias1 : Rect S4x256 := Rect.unit (s := S4x256) ![1, 0] S1x256.size inb_S4x256_S1x256_1_0
abbrev rBias2 : Rect S4x256 := Rect.unit (s := S4x256) ![2, 0] S1x256.size inb_S4x256_S1x256_2_0
abbrev rBias3 : Rect S4x256 := Rect.unit (s := S4x256) ![3, 0] S1x256.size inb_S4x256_S1x256_3_0

/-! ## What the body leaves in the two output blocks -/

/-- The hidden-state block after the body, from the twelve input blocks: its one whole-block store. -/
def outH (x0 : Vec F S512x2048 .bf16) (x1 : Vec F S512x2048 .bf16) (x2 : Vec F S512x256 .f32) (x3 : Vec F S2048x256 .bf16) (x4 : Vec F S2048x256 .bf16) (x5 : Vec F S2048x256 .bf16) (x6 : Vec F S2048x256 .bf16) (x7 : Vec F S2048x256 .bf16) (x8 : Vec F S2048x256 .bf16) (x9 : Vec F S2048x256 .bf16) (x10 : Vec F S2048x256 .bf16) (x11 : Vec F S4x256 .f32) : Vec F S512x256 .f32 :=
  View.canon [⟨rOut, k0_pay2 (k0_pay3 (View.ld x0 rAct)) (k0_pay4 (View.ld x1 rAct)) (k0_pay5 (View.ld x0 rAct) (View.ld x1 rAct) (View.ld x3 rWgt) (View.ld x4 rWgt) (View.ld x11 rBias0)) (k0_pay6 (View.ld x0 rAct) (View.ld x1 rAct) (View.ld x5 rWgt) (View.ld x6 rWgt) (View.ld x11 rBias1)) (k0_pay7 (View.ld x0 rAct) (View.ld x7 rWgt)) (k0_pay8 (View.ld x1 rAct) (View.ld x8 rWgt)) (View.ld x11 rBias2) (View.ld x9 rWgt) (View.ld x10 rWgt) (View.ld x11 rBias3) (View.ld x2 rOut)⟩]

/-- The cell-state block after the body, from the twelve input blocks: its one whole-block store. -/
def outC (x0 : Vec F S512x2048 .bf16) (x1 : Vec F S512x2048 .bf16) (x2 : Vec F S512x256 .f32) (x3 : Vec F S2048x256 .bf16) (x4 : Vec F S2048x256 .bf16) (x5 : Vec F S2048x256 .bf16) (x6 : Vec F S2048x256 .bf16) (x7 : Vec F S2048x256 .bf16) (x8 : Vec F S2048x256 .bf16) (x9 : Vec F S2048x256 .bf16) (x10 : Vec F S2048x256 .bf16) (x11 : Vec F S4x256 .f32) : Vec F S512x256 .f32 :=
  View.canon [⟨rOut, k0_pay1 (k0_pay5 (View.ld x0 rAct) (View.ld x1 rAct) (View.ld x3 rWgt) (View.ld x4 rWgt) (View.ld x11 rBias0)) (k0_pay6 (View.ld x0 rAct) (View.ld x1 rAct) (View.ld x5 rWgt) (View.ld x6 rWgt) (View.ld x11 rBias1)) (k0_pay7 (View.ld x0 rAct) (View.ld x7 rWgt)) (k0_pay8 (View.ld x1 rAct) (View.ld x8 rWgt)) (View.ld x11 rBias2) (View.ld x2 rOut)⟩]

/-- One store of the whole block covers the block. -/
theorem coverOut (p0 : Vec F S512x256 .f32) (y : S512x256.Idx) :
    ∃ pc ∈ ([⟨rOut, p0⟩] : List (View.Piece (Elt F) S512x256 .f32)), y ∈ pc.1.set :=
  View.cover_of_tiled [⟨rOut, p0⟩] S512x256.size (by rfl) y

/-! ## The body's triple -/

set_option maxHeartbeats 4000000 in
/-- The body on whole staging buffers, the inputs' at contents `x0 … x11` and the outputs' at anything, runs to the
    continuation with the inputs' as they were and the outputs' at `outH` and `outC` of the inputs. -/
theorem sound_kernel (c : Dev nD) (E : Set ℕ) (i : grid0.Coords) (arg2 : Memref sig .tc .vmem S512x2048 .bf16) (harg2 : arg2.IsWhole) (arg3 : Memref sig .tc .vmem S512x2048 .bf16) (harg3 : arg3.IsWhole) (arg4 : Memref sig .tc .vmem S512x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S4x256 .f32) (harg13 : arg13.IsWhole) (arg14 : Memref sig .tc .vmem S512x256 .f32) (harg14 : arg14.IsWhole) (arg15 : Memref sig .tc .vmem S512x256 .f32) (harg15 : arg15.IsWhole)
    (x0 : Vec F S512x2048 .bf16) (x1 : Vec F S512x2048 .bf16) (x2 : Vec F S512x256 .f32) (x3 : Vec F S2048x256 .bf16) (x4 : Vec F S2048x256 .bf16) (x5 : Vec F S2048x256 .bf16) (x6 : Vec F S2048x256 .bf16) (x7 : Vec F S2048x256 .bf16) (x8 : Vec F S2048x256 .bf16) (x9 : Vec F S2048x256 .bf16) (x10 : Vec F S2048x256 .bf16) (x11 : Vec F S4x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (outH x0 x1 x2 x3 x4 x5 x6 x7 x8 x9 x10 x11) ∗ owns (c : Thread nD τ) arg15 fullShare (outC x0 x1 x2 x3 x4 x5 x6 x7 x8 x9 x10 x11)) -∗ K ⟨⟩))
      ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (coverOut _)
  iexists _; isplitr
  swap; · iexact H13
  ipureintro
  exact View.read_writes_eq_canon _ _ _ (coverOut _)

/-! ## The pipeline's proof data -/

/-- On core `c`: the arrays as the region finds them; after the body at point `t` each input's buffer still at its
    block and each output's at its function of the input blocks; the pipeline's own invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => outC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after_13 (c : Dev nD) (t : Fin cfg0.N) : (dats m 0 c).after 13 t = outC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before_0 (c : Dev nD) (t : Fin cfg0.N) (d) : (dats m 0 c).before 0 t d = iblk m c 0 t :=
  inputBlock0_of m (dats m 0 c) (A_eq m c 0) (after_0 m c) t d
theorem before_1 (c : Dev nD) (t : Fin cfg0.N) (d) : (dats m 0 c).before 1 t d = iblk m c 1 t :=
  inputBlock1_of m (dats m 0 c) (A_eq m c 1) (after_1 m c) t d
theorem before_2 (c : Dev nD) (t : Fin cfg0.N) (d) : (dats m 0 c).before 2 t d = iblk m c 2 t :=
  inputBlock2_of m (dats m 0 c) (A_eq m c 2) (after_2 m c) t d
theorem before_3 (c : Dev nD) (t : Fin cfg0.N) (d) : (dats m 0 c).before 3 t d = iblk m c 3 t :=
  inputBlock3_of m (dats m 0 c) (A_eq m c 3) (after_3 m c) t d
theorem before_4 (c : Dev nD) (t : Fin cfg0.N) (d) : (dats m 0 c).before 4 t d = iblk m c 4 t :=
  inputBlock4_of m (dats m 0 c) (A_eq m c 4) (after_4 m c) t d
theorem before_5 (c : Dev nD) (t : Fin cfg0.N) (d) : (dats m 0 c).before 5 t d = iblk m c 5 t :=
  inputBlock5_of m (dats m 0 c) (A_eq m c 5) (after_5 m c) t d
theorem before_6 (c : Dev nD) (t : Fin cfg0.N) (d) : (dats m 0 c).before 6 t d = iblk m c 6 t :=
  inputBlock6_of m (dats m 0 c) (A_eq m c 6) (after_6 m c) t d
theorem before_7 (c : Dev nD) (t : Fin cfg0.N) (d) : (dats m 0 c).before 7 t d = iblk m c 7 t :=
  inputBlock7_of m (dats m 0 c) (A_eq m c 7) (after_7 m c) t d
theorem before_8 (c : Dev nD) (t : Fin cfg0.N) (d) : (dats m 0 c).before 8 t d = iblk m c 8 t :=
  inputBlock8_of m (dats m 0 c) (A_eq m c 8) (after_8 m c) t d
theorem before_9 (c : Dev nD) (t : Fin cfg0.N) (d) : (dats m 0 c).before 9 t d = iblk m c 9 t :=
  inputBlock9_of m (dats m 0 c) (A_eq m c 9) (after_9 m c) t d
theorem before_10 (c : Dev nD) (t : Fin cfg0.N) (d) : (dats m 0 c).before 10 t d = iblk m c 10 t :=
  inputBlock10_of m (dats m 0 c) (A_eq m c 10) (after_10 m c) t d
theorem before_11 (c : Dev nD) (t : Fin cfg0.N) (d) : (dats m 0 c).before 11 t d = iblk m c 11 t :=
  inputBlock11_of m (dats m 0 c) (A_eq m c 11) (after_11 m c) t d

/-! ## The body obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program on the TensorCores terminates, and every final state has each array
    of the pipeline at what the proof data give it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, nothing faults, and the eleven argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.CellFrame

end
-- ==== Proof.KernelIdealFrame.lean ====
/-
  The frame of the LSTM cell kernel: run on every TensorCore from any memory, the program terminates, nothing
  faults, and its eleven argument arrays end as they began.

  The program is a stretch of host operations (casts, slices and transposes of the weights, and the four biases
  stacked into one [4, 2048] array), then one pipelined region over a 16 × 8 grid. At a grid point the pipeline
  hands the body twelve input blocks — a [512, 2048] block of the input and of the previous hidden state, a
  [512, 256] block of the previous cell state, eight [2048, 256] weight blocks and a [4, 256] block of the stacked
  biases — and two [512, 256] output blocks. The body only loads its inputs whole (each bias row as a [1, 256] slice)
  and stores each output block whole, once; so what it leaves in an output block is a function of the twelve input
  blocks alone (`outH`, `outC`), it keeps nothing between points, and the region's invariant is the pipeline's own.
  None of the host operations writes an argument array, and the region writes only its two result arrays.
-/
import proofs.«152223_j49160195670661_2_alg».proof.Proof.Gen.KernelIdeal.Launch
import proofs.«152223_j49160195670661_2_alg».proof.Proof.Gen.KernelIdeal.Skeleton
import proofs.«152223_j49160195670661_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s TensorCore buffers after the host operations that precede the region. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 1: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 2: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 3: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 4: the region finds it as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 5: the region finds it as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 6: the region finds it as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 7: the region finds it as launched. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 8: the region finds it as launched. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 9: the region finds it as launched. -/
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 10: the region finds it as launched. -/
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))

/-! ## The blocks the body is handed -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/- An input window's current staging buffer holds its block at every point, whether the pipeline fetched it there
   or kept it from the point before (the block index not having moved): for any proof data over these arrays whose
   body leaves the block in place. -/
theorem inputBlock0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem inputBlock1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem inputBlock2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem inputBlock3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem inputBlock4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem inputBlock5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem inputBlock6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem inputBlock7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem inputBlock8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem inputBlock9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem inputBlock10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem inputBlock11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's -/

/-- From a run that ends with every array of the pipeline at what the proof data say and every other unscoped buffer
    as the region found it, the argument arrays end as launched: the previous cell state is an input window's array,
    the other ten arguments are read by host operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_arg0 m c),
      ((h c).2 main_arg1 (Pipeline.mem_restRefs_of main_arg1 (by decide) (by decide))).trans (V_arg1 m c),
      ((h c).1 2).trans (((dats 0 c).arrAt_in 2 rfl _).trans ((hA c 2).trans (V_arg2 m c))),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c)⟩) h

/-! ## The body's accesses -/

abbrev rAct : Rect S512x2048 := Rect.unit (s := S512x2048) ![0, 0] S512x2048.size inb_S512x2048_S512x2048_0_0
abbrev rWgt : Rect S2048x256 := Rect.unit (s := S2048x256) ![0, 0] S2048x256.size inb_S2048x256_S2048x256_0_0
abbrev rOut : Rect S512x256 := Rect.unit (s := S512x256) ![0, 0] S512x256.size inb_S512x256_S512x256_0_0
abbrev rBias0 : Rect S4x256 := Rect.unit (s := S4x256) ![0, 0] S1x256.size inb_S4x256_S1x256_0_0
abbrev rBias1 : Rect S4x256 := Rect.unit (s := S4x256) ![1, 0] S1x256.size inb_S4x256_S1x256_1_0
abbrev rBias2 : Rect S4x256 := Rect.unit (s := S4x256) ![2, 0] S1x256.size inb_S4x256_S1x256_2_0
abbrev rBias3 : Rect S4x256 := Rect.unit (s := S4x256) ![3, 0] S1x256.size inb_S4x256_S1x256_3_0

/-! ## What the body leaves in the two output blocks -/

/-- The hidden-state block after the body, from the twelve input blocks: its one whole-block store. -/
def outH (x0 : Vec F S512x2048 .bf16) (x1 : Vec F S512x2048 .bf16) (x2 : Vec F S512x256 .f32) (x3 : Vec F S2048x256 .bf16) (x4 : Vec F S2048x256 .bf16) (x5 : Vec F S2048x256 .bf16) (x6 : Vec F S2048x256 .bf16) (x7 : Vec F S2048x256 .bf16) (x8 : Vec F S2048x256 .bf16) (x9 : Vec F S2048x256 .bf16) (x10 : Vec F S2048x256 .bf16) (x11 : Vec F S4x256 .f32) : Vec F S512x256 .f32 :=
  View.canon [⟨rOut, k0_pay2 (k0_pay3 (View.ld x0 rAct)) (k0_pay4 (View.ld x1 rAct)) (k0_pay5 (View.ld x0 rAct) (View.ld x1 rAct) (View.ld x3 rWgt) (View.ld x4 rWgt) (View.ld x11 rBias0)) (k0_pay6 (View.ld x0 rAct) (View.ld x1 rAct) (View.ld x5 rWgt) (View.ld x6 rWgt) (View.ld x11 rBias1)) (k0_pay7 (View.ld x0 rAct) (View.ld x7 rWgt)) (k0_pay8 (View.ld x1 rAct) (View.ld x8 rWgt)) (View.ld x11 rBias2) (View.ld x9 rWgt) (View.ld x10 rWgt) (View.ld x11 rBias3) (View.ld x2 rOut)⟩]

/-- The cell-state block after the body, from the twelve input blocks: its one whole-block store. -/
def outC (x0 : Vec F S512x2048 .bf16) (x1 : Vec F S512x2048 .bf16) (x2 : Vec F S512x256 .f32) (x3 : Vec F S2048x256 .bf16) (x4 : Vec F S2048x256 .bf16) (x5 : Vec F S2048x256 .bf16) (x6 : Vec F S2048x256 .bf16) (x7 : Vec F S2048x256 .bf16) (x8 : Vec F S2048x256 .bf16) (x9 : Vec F S2048x256 .bf16) (x10 : Vec F S2048x256 .bf16) (x11 : Vec F S4x256 .f32) : Vec F S512x256 .f32 :=
  View.canon [⟨rOut, k0_pay1 (k0_pay5 (View.ld x0 rAct) (View.ld x1 rAct) (View.ld x3 rWgt) (View.ld x4 rWgt) (View.ld x11 rBias0)) (k0_pay6 (View.ld x0 rAct) (View.ld x1 rAct) (View.ld x5 rWgt) (View.ld x6 rWgt) (View.ld x11 rBias1)) (k0_pay7 (View.ld x0 rAct) (View.ld x7 rWgt)) (k0_pay8 (View.ld x1 rAct) (View.ld x8 rWgt)) (View.ld x11 rBias2) (View.ld x2 rOut)⟩]

/-- One store of the whole block covers the block. -/
theorem coverOut (p0 : Vec F S512x256 .f32) (y : S512x256.Idx) :
    ∃ pc ∈ ([⟨rOut, p0⟩] : List (View.Piece (Elt F) S512x256 .f32)), y ∈ pc.1.set :=
  View.cover_of_tiled [⟨rOut, p0⟩] S512x256.size (by rfl) y

/-! ## The body's triple -/

set_option maxHeartbeats 4000000 in
/-- The body on whole staging buffers, the inputs' at contents `x0 … x11` and the outputs' at anything, runs to the
    continuation with the inputs' as they were and the outputs' at `outH` and `outC` of the inputs. -/
theorem sound_kernel (c : Dev nD) (E : Set ℕ) (i : grid0.Coords) (arg2 : Memref sig .tc .vmem S512x2048 .bf16) (harg2 : arg2.IsWhole) (arg3 : Memref sig .tc .vmem S512x2048 .bf16) (harg3 : arg3.IsWhole) (arg4 : Memref sig .tc .vmem S512x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S4x256 .f32) (harg13 : arg13.IsWhole) (arg14 : Memref sig .tc .vmem S512x256 .f32) (harg14 : arg14.IsWhole) (arg15 : Memref sig .tc .vmem S512x256 .f32) (harg15 : arg15.IsWhole)
    (x0 : Vec F S512x2048 .bf16) (x1 : Vec F S512x2048 .bf16) (x2 : Vec F S512x256 .f32) (x3 : Vec F S2048x256 .bf16) (x4 : Vec F S2048x256 .bf16) (x5 : Vec F S2048x256 .bf16) (x6 : Vec F S2048x256 .bf16) (x7 : Vec F S2048x256 .bf16) (x8 : Vec F S2048x256 .bf16) (x9 : Vec F S2048x256 .bf16) (x10 : Vec F S2048x256 .bf16) (x11 : Vec F S4x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (outH x0 x1 x2 x3 x4 x5 x6 x7 x8 x9 x10 x11) ∗ owns (c : Thread nD τ) arg15 fullShare (outC x0 x1 x2 x3 x4 x5 x6 x7 x8 x9 x10 x11)) -∗ K ⟨⟩))
      ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (coverOut _)
  iexists _; isplitr
  swap; · iexact H13
  ipureintro
  exact View.read_writes_eq_canon _ _ _ (coverOut _)

/-! ## The pipeline's proof data -/

/-- On core `c`: the arrays as the region finds them; after the body at point `t` each input's buffer still at its
    block and each output's at its function of the input blocks; the pipeline's own invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => outC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after_13 (c : Dev nD) (t : Fin cfg0.N) : (dats m 0 c).after 13 t = outC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before_0 (c : Dev nD) (t : Fin cfg0.N) (d) : (dats m 0 c).before 0 t d = iblk m c 0 t :=
  inputBlock0_of m (dats m 0 c) (A_eq m c 0) (after_0 m c) t d
theorem before_1 (c : Dev nD) (t : Fin cfg0.N) (d) : (dats m 0 c).before 1 t d = iblk m c 1 t :=
  inputBlock1_of m (dats m 0 c) (A_eq m c 1) (after_1 m c) t d
theorem before_2 (c : Dev nD) (t : Fin cfg0.N) (d) : (dats m 0 c).before 2 t d = iblk m c 2 t :=
  inputBlock2_of m (dats m 0 c) (A_eq m c 2) (after_2 m c) t d
theorem before_3 (c : Dev nD) (t : Fin cfg0.N) (d) : (dats m 0 c).before 3 t d = iblk m c 3 t :=
  inputBlock3_of m (dats m 0 c) (A_eq m c 3) (after_3 m c) t d
theorem before_4 (c : Dev nD) (t : Fin cfg0.N) (d) : (dats m 0 c).before 4 t d = iblk m c 4 t :=
  inputBlock4_of m (dats m 0 c) (A_eq m c 4) (after_4 m c) t d
theorem before_5 (c : Dev nD) (t : Fin cfg0.N) (d) : (dats m 0 c).before 5 t d = iblk m c 5 t :=
  inputBlock5_of m (dats m 0 c) (A_eq m c 5) (after_5 m c) t d
theorem before_6 (c : Dev nD) (t : Fin cfg0.N) (d) : (dats m 0 c).before 6 t d = iblk m c 6 t :=
  inputBlock6_of m (dats m 0 c) (A_eq m c 6) (after_6 m c) t d
theorem before_7 (c : Dev nD) (t : Fin cfg0.N) (d) : (dats m 0 c).before 7 t d = iblk m c 7 t :=
  inputBlock7_of m (dats m 0 c) (A_eq m c 7) (after_7 m c) t d
theorem before_8 (c : Dev nD) (t : Fin cfg0.N) (d) : (dats m 0 c).before 8 t d = iblk m c 8 t :=
  inputBlock8_of m (dats m 0 c) (A_eq m c 8) (after_8 m c) t d
theorem before_9 (c : Dev nD) (t : Fin cfg0.N) (d) : (dats m 0 c).before 9 t d = iblk m c 9 t :=
  inputBlock9_of m (dats m 0 c) (A_eq m c 9) (after_9 m c) t d
theorem before_10 (c : Dev nD) (t : Fin cfg0.N) (d) : (dats m 0 c).before 10 t d = iblk m c 10 t :=
  inputBlock10_of m (dats m 0 c) (A_eq m c 10) (after_10 m c) t d
theorem before_11 (c : Dev nD) (t : Fin cfg0.N) (d) : (dats m 0 c).before 11 t d = iblk m c 11 t :=
  inputBlock11_of m (dats m 0 c) (A_eq m c 11) (after_11 m c) t d

/-! ## The body obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program on the TensorCores terminates, and every final state has each array
    of the pipeline at what the proof data give it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, nothing faults, and the eleven argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.CellFrame

end
-- ==== Proof.LstmSpec.lean ====
/-
  The mathematics of one LSTM cell step, stated once, index by index, on the extended reals.

  For a batch row `b` and a hidden unit `n`, each of the four gates is an affine form of the row's input
  `x b ·` and previous hidden state `h b ·`: the weight row `W n ·` has 4096 entries, the first 2048 meeting the
  input and the last 2048 meeting the hidden state, so

      gate W bias (b, n) = (Σ_k x(b,k) · W(n,k)  +  Σ_k h(b,k) · W(n, 2048 + k))  +  bias(n).

  With `σ` the logistic function, the new cell state and hidden state are

      c'(b,n) = σ(gate_f) · c(b,n) + σ(gate_i) · tanh(gate_g),        h'(b,n) = σ(gate_o) · tanh(c'(b,n)).

  One program computes each gate as the two half-length sums above; the other concatenates input and hidden state
  into one row of length 4096 and takes a single sum. The two agree because a sum over `Fin 4096` splits into the
  sums over its two halves (`sum_halves`) — associativity and commutativity of addition only, so the infinities of
  the extended reals are no obstacle and no finiteness of the inputs is needed.
-/
import Idealize.ShloMosaic.PureOps.Ideal
import Idealize.ShloMosaic.Lib.ValueIdx

noncomputable section

open scoped BigOperators

namespace Cert.LstmSpec

open Idealize.ShloMosaic Idealize.ShloMosaic.ValueIdx

/-- Batch by features: the input, both states, and both results. -/
abbrev SAct : Shape := ⟨2, ![8192, 2048]⟩
/-- One gate's weights: a row per hidden unit, 2048 input columns then 2048 hidden-state columns. -/
abbrev SWgt : Shape := ⟨2, ![2048, 4096]⟩
/-- One gate's bias. -/
abbrev SBias : Shape := ⟨1, ![2048]⟩

/-- Column `k` of the input half of a weight row. -/
def colIn (k : Fin 2048) : Fin 4096 := ⟨k.val, by omega⟩
/-- Column `k` of the hidden-state half of a weight row. -/
def colHid (k : Fin 2048) : Fin 4096 := ⟨2048 + k.val, by omega⟩

@[simp] theorem colIn_val (k : Fin 2048) : (colIn k).val = k.val := rfl
@[simp] theorem colHid_val (k : Fin 2048) : (colHid k).val = 2048 + k.val := rfl

/-- A sum over the 4096 columns is the sum over the input half plus the sum over the hidden-state half. -/
theorem sum_halves {M : Type*} [AddCommMonoid M] (f : Fin 4096 → M) :
    ∑ k : Fin 4096, f k = ∑ k : Fin 2048, f (colIn k) + ∑ k : Fin 2048, f (colHid k) :=
  Fin.sum_univ_add (a := 2048) (b := 2048) (f : Fin (2048 + 2048) → M)

/-- One gate before its nonlinearity, at batch row `b` and hidden unit `n`. -/
def gate (x h : SAct.Idx → EReal) (W : SWgt.Idx → EReal) (bias : SBias.Idx → EReal) (b : Fin 8192) (n : Fin 2048) : EReal :=
  (∑ k : Fin 2048, x (ix2 b k) * W (ix2 n (colIn k)) + ∑ k : Fin 2048, h (ix2 b k) * W (ix2 n (colHid k))) + bias (ix1 n)

/-- The new cell state at `(b, n)`: forget gate times the old state plus input gate times the candidate. -/
def cell (x h c : SAct.Idx → EReal) (Wf : SWgt.Idx → EReal) (bf : SBias.Idx → EReal) (Wi : SWgt.Idx → EReal) (bi : SBias.Idx → EReal)
    (Wg : SWgt.Idx → EReal) (bg : SBias.Idx → EReal) (b : Fin 8192) (n : Fin 2048) : EReal :=
  Ideal.logistic (gate x h Wf bf b n) * c (ix2 b n) + Ideal.logistic (gate x h Wi bi b n) * Ideal.tanh (gate x h Wg bg b n)

/-- The new hidden state at `(b, n)`: output gate times `tanh` of the new cell state. -/
def hidden (x h c : SAct.Idx → EReal) (Wf : SWgt.Idx → EReal) (bf : SBias.Idx → EReal) (Wi : SWgt.Idx → EReal) (bi : SBias.Idx → EReal)
    (Wg : SWgt.Idx → EReal) (bg : SBias.Idx → EReal) (Wo : SWgt.Idx → EReal) (bo : SBias.Idx → EReal) (b : Fin 8192) (n : Fin 2048) : EReal :=
  Ideal.logistic (gate x h Wo bo b n) * Ideal.tanh (cell x h c Wf bf Wi bi Wg bg b n)

/-- The new cell state as a whole array. -/
def cellArr (x h c : SAct.Idx → EReal) (Wf : SWgt.Idx → EReal) (bf : SBias.Idx → EReal) (Wi : SWgt.Idx → EReal) (bi : SBias.Idx → EReal)
    (Wg : SWgt.Idx → EReal) (bg : SBias.Idx → EReal) : SAct.Idx → EReal :=
  fun i => cell x h c Wf bf Wi bi Wg bg (i 0) (i 1)

/-- The new hidden state as a whole array. -/
def hiddenArr (x h c : SAct.Idx → EReal) (Wf : SWgt.Idx → EReal) (bf : SBias.Idx → EReal) (Wi : SWgt.Idx → EReal) (bi : SBias.Idx → EReal)
    (Wg : SWgt.Idx → EReal) (bg : SBias.Idx → EReal) (Wo : SWgt.Idx → EReal) (bo : SBias.Idx → EReal) : SAct.Idx → EReal :=
  fun i => hidden x h c Wf bf Wi bi Wg bg Wo bo (i 0) (i 1)

/-- The logistic function is, by its definition on the extended reals, `1 / (1 + e^(-z))` with the quotient the
    extended reals' division: the form a program takes that spells it out in negate, exponential, add and divide. -/
theorem logistic_expanded (z : EReal) : Ideal.div 1 (1 + Ideal.exp (-z)) = Ideal.logistic z := rfl

/-- The single-precision pattern `0x3F800000` denotes the real number one. -/
theorem ofBits_one : Ideal.ofBits .f32 0x3F800000#32 = (1 : EReal) := by
  simp [Ideal.ofBits, Ideal.ieee, -EReal.coe_mul]; norm_num

end Cert.LstmSpec

end
-- ==== Proof.KernelIdealEntry.lean ====
/-
  What the region finds in the arrays its windows stage, index by index, at the ideal instance.

  The host operations before the region only re-lay the arguments: a change of float format (the identity on the
  extended reals); each weight matrix `W : [2048, 4096]` cut into its input half (columns 0 … 2047) and its
  hidden-state half (columns 2048 … 4095), each half transposed, so that entry `(k, n)` of a half is `W (n, k)`
  resp. `W (n, 2048 + k)`; and the four biases, each as a `[1, 2048]` row, stacked into a `[4, 2048]` array whose
  row `g` is the `g`-th bias.
-/
import proofs.«152223_j49160195670661_2_alg».proof.Proof.KernelIdealFrame
import proofs.«152223_j49160195670661_2_alg».proof.Proof.LstmSpec
import Idealize.ShloMosaic.Lib.Pipeline.Value
import Idealize.ShloMosaic.Lib.ValueIdx
import Idealize.ShloMosaic.Lib.StableHlo.Run

set_option maxRecDepth 16384

noncomputable section

namespace Cert.KernelIdeal.CellEntry

open Cert.KernelIdeal Cert.KernelIdeal.Gen Cert.KernelIdeal.CellFrame
open Idealize.ShloMosaic Idealize.ShloMosaic.TcCoe Idealize.SL.Sem Idealize.ShloMosaic.StableHlo Idealize.ShloMosaic.ValueIdx
open Cert.LstmSpec (colIn colHid)

/-! ## The three re-layings, as functions of an argument array -/

/-- An activation array in the narrower float format: the same numbers. -/
def narrowed (X : FVec Ideal S8192x2048 .f32) : FVec Ideal S8192x2048 .bf16 := truncf .bf16 X bitsLt_bf16_f32

theorem narrowed_apply (X : FVec Ideal S8192x2048 .f32) (i : S8192x2048.Idx) : narrowed X i = X i := rfl

/-- A weight matrix in the narrower format (the same numbers). -/
def narrowedW (W : FVec Ideal S2048x4096 .f32) : FVec Ideal S2048x4096 .bf16 := truncf .bf16 W bitsLt_bf16_f32

theorem narrowedW_apply (W : FVec Ideal S2048x4096 .f32) (i : S2048x4096.Idx) : narrowedW W i = W i := rfl

/-- The input half of a weight matrix, transposed. -/
def inHalf (W : FVec Ideal S2048x4096 .f32) : FVec Ideal S2048x2048 .bf16 :=
  transpose S2048x2048 [1, 0] (extractStridedSlice S2048x2048 ![0, 0] (narrowedW W) slices_S2048x4096_S2048x2048_0_0)
    transposes_S2048x2048_S2048x2048_1_0

/-- The hidden-state half of a weight matrix, transposed. -/
def hidHalf (W : FVec Ideal S2048x4096 .f32) : FVec Ideal S2048x2048 .bf16 :=
  transpose S2048x2048 [1, 0] (extractStridedSlice S2048x2048 ![0, 2048] (narrowedW W) slices_S2048x4096_S2048x2048_0_2048)
    transposes_S2048x2048_S2048x2048_1_0

/-- Entry `(k, n)` of the transposed input half is the weight of hidden unit `n` on input feature `k`. -/
theorem inHalf_apply (W : FVec Ideal S2048x4096 .f32) (k n : Fin 2048) :
    inHalf W (ix2 k n) = W (ix2 n (colIn k)) := by
  unfold inHalf
  refine (transpose_apply [1, 0] _ transposes_S2048x2048_S2048x2048_1_0 (ix2 k n) (ix2 n k) (fun b => match b with
    | ⟨0, _⟩ => rfl
    | ⟨1, _⟩ => rfl)).trans ?_
  refine (extractStridedSlice_apply ![0, 0] _ slices_S2048x4096_S2048x2048_0_0 (ix2 n k) (ix2 n (colIn k)) (fun a => match a with
    | ⟨0, _⟩ => by show n.val = 0 + n.val; omega
    | ⟨1, _⟩ => by show k.val = 0 + k.val; omega)).trans ?_
  rfl

/-- Entry `(k, n)` of the transposed hidden-state half is the weight of hidden unit `n` on hidden feature `k`. -/
theorem hidHalf_apply (W : FVec Ideal S2048x4096 .f32) (k n : Fin 2048) :
    hidHalf W (ix2 k n) = W (ix2 n (colHid k)) := by
  unfold hidHalf
  refine (transpose_apply [1, 0] _ transposes_S2048x2048_S2048x2048_1_0 (ix2 k n) (ix2 n k) (fun b => match b with
    | ⟨0, _⟩ => rfl
    | ⟨1, _⟩ => rfl)).trans ?_
  refine (extractStridedSlice_apply ![0, 2048] _ slices_S2048x4096_S2048x2048_0_2048 (ix2 n k) (ix2 n (colHid k)) (fun a => match a with
    | ⟨0, _⟩ => by show n.val = 0 + n.val; omega
    | ⟨1, _⟩ => by show 2048 + k.val = 2048 + k.val; rfl)).trans ?_
  rfl

/-- A bias as a `[1, 2048]` row. -/
def asRow (b : FVec Ideal S2048 .f32) : FVec Ideal S1x2048 .f32 := broadcastInDim S1x2048 ![1] bcast_S2048_S1x2048_1 b

theorem asRow_apply (b : FVec Ideal S2048 .f32) (n : Fin 2048) : asRow b (ix2 (0 : Fin 1) n) = b (ix1 n) := by
  unfold asRow
  exact broadcastInDim_apply _ bcast_S2048_S1x2048_1 b (ix2 (0 : Fin 1) n) (ix1 n) (fun a => match a with
    | ⟨0, _⟩ => by show n.val = if (2048 : Nat) = 1 then 0 else n.val; rw [if_neg (by decide)])

/-- The four bias rows, in order. -/
abbrev rows (b0 b1 b2 b3 : FVec Ideal S2048 .f32) : List ((s : Shape) × (s.Idx → Ideal .f32)) :=
  [⟨S1x2048, asRow b0⟩, ⟨S1x2048, asRow b1⟩, ⟨S1x2048, asRow b2⟩, ⟨S1x2048, asRow b3⟩]

/-- The four biases stacked. -/
def stacked (b0 b1 b2 b3 : FVec Ideal S2048 .f32) : FVec Ideal S4x2048 .f32 :=
  concatenate S4x2048 0 (rows b0 b1 b2 b3) concatenates_S1x2048_S1x2048_S1x2048_S1x2048_S4x2048_d0

/-- Row `g` of the stack is the `g`-th bias (`bg`: the bias of the piece at position `g`). -/
theorem stacked_row (b0 b1 b2 b3 bg : FVec Ideal S2048 .f32) (g : Fin 4) (n : Fin 2048)
    (hg : (rows b0 b1 b2 b3)[g.val]'(g.isLt) = ⟨S1x2048, asRow bg⟩) :
    stacked b0 b1 b2 b3 (ix2 g n) = bg (ix1 n) := by
  unfold stacked
  refine (concatenate_apply_piece (t := S4x2048) (0 : Fin 2) (rows b0 b1 b2 b3) concatenates_S1x2048_S1x2048_S1x2048_S1x2048_S4x2048_d0
    (ix2 g n) g.val g.isLt S1x2048 (asRow bg) hg rfl g.val
    (by match g with
        | ⟨0, _⟩ => rfl
        | ⟨1, _⟩ => rfl
        | ⟨2, _⟩ => rfl
        | ⟨3, _⟩ => rfl)
    (ix2 (0 : Fin 1) n) (fun b hb => match b, hb with
      | ⟨0, _⟩, hb => absurd rfl hb
      | ⟨1, _⟩, _ => rfl)
    (by show g.val + 0 = g.val; omega)).trans ?_
  exact asRow_apply bg n

/-! ## The arrays the windows stage, as the region finds them -/

variable (m : (ℓ : Loc nD τ sig) → Buf (Elt Ideal) ℓ) (c : Dev nD)

theorem entry_x : V m c main_v0 = narrowed (m ((c : Thread nD τ).loc main_arg0)) := by
  dsimp only [V]; simp only [hostOps0, List.flatten_cons, List.flatten_nil, List.append_nil]; after_results; rfl
theorem entry_h : V m c main_v1 = narrowed (m ((c : Thread nD τ).loc main_arg1)) := by
  dsimp only [V]; simp only [hostOps0, List.flatten_cons, List.flatten_nil, List.append_nil]; after_results; rfl

theorem entry_Wf_in : V m c main_v4 = inHalf (m ((c : Thread nD τ).loc main_arg3)) := by
  dsimp only [V]; simp only [hostOps0, List.flatten_cons, List.flatten_nil, List.append_nil]; after_results; rfl
theorem entry_Wf_hid : V m c main_v6 = hidHalf (m ((c : Thread nD τ).loc main_arg3)) := by
  dsimp only [V]; simp only [hostOps0, List.flatten_cons, List.flatten_nil, List.append_nil]; after_results; rfl

theorem entry_Wi_in : V m c main_v9 = inHalf (m ((c : Thread nD τ).loc main_arg5)) := by
  dsimp only [V]; simp only [hostOps0, List.flatten_cons, List.flatten_nil, List.append_nil]; after_results; rfl
theorem entry_Wi_hid : V m c main_v11 = hidHalf (m ((c : Thread nD τ).loc main_arg5)) := by
  dsimp only [V]; simp only [hostOps0, List.flatten_cons, List.flatten_nil, List.append_nil]; after_results; rfl

theorem entry_Wg_in : V m c main_v14 = inHalf (m ((c : Thread nD τ).loc main_arg7)) := by
  dsimp only [V]; simp only [hostOps0, List.flatten_cons, List.flatten_nil, List.append_nil]; after_results; rfl
theorem entry_Wg_hid : V m c main_v16 = hidHalf (m ((c : Thread nD τ).loc main_arg7)) := by
  dsimp only [V]; simp only [hostOps0, List.flatten_cons, List.flatten_nil, List.append_nil]; after_results; rfl

theorem entry_Wo_in : V m c main_v19 = inHalf (m ((c : Thread nD τ).loc main_arg9)) := by
  dsimp only [V]; simp only [hostOps0, List.flatten_cons, List.flatten_nil, List.append_nil]; after_results; rfl
theorem entry_Wo_hid : V m c main_v21 = hidHalf (m ((c : Thread nD τ).loc main_arg9)) := by
  dsimp only [V]; simp only [hostOps0, List.flatten_cons, List.flatten_nil, List.append_nil]; after_results; rfl

theorem entry_bias : V m c main_v26 = stacked (m ((c : Thread nD τ).loc main_arg4)) (m ((c : Thread nD τ).loc main_arg6))
    (m ((c : Thread nD τ).loc main_arg8)) (m ((c : Thread nD τ).loc main_arg10)) := by
  dsimp only [V]; simp only [hostOps0, List.flatten_cons, List.flatten_nil, List.append_nil]; after_results; rfl

end Cert.KernelIdeal.CellEntry

end
-- ==== Proof.KernelIdealPayload.lean ====
/-
  What the kernel body computes, read at one entry of a block, at the ideal instance.

  At row `p` and column `q` of its [512, 256] output blocks the body forms, for each of the four gates, the product
  of row `p` of the input block with column `q` of the gate's input-weight block, plus the product of row `p` of the
  hidden-state block with column `q` of the gate's hidden-weight block (each an exact sum over the 2048 contracted
  positions, the accumulator starting at zero), plus entry `q` of the gate's bias row; then the logistic function of
  the forget, input and output gates and `tanh` of the candidate gate combine with the old cell state exactly as in
  the specification. The lemmas below say this for blocks that hold, along the contracted axis and at `(p, q)`, the
  entries of whole arrays at a batch row `b` and a hidden unit `n`.
-/
import proofs.«152223_j49160195670661_2_alg».proof.Proof.KernelIdealFrame
import proofs.«152223_j49160195670661_2_alg».proof.Proof.LstmSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.CellPayload

open Cert.KernelIdeal Cert.KernelIdeal.Gen Cert.KernelIdeal.CellFrame
open Idealize.ShloMosaic Idealize.ShloMosaic.TcCoe Idealize.ShloMosaic.ValueIdx
open Cert.LstmSpec (SAct SWgt SBias colIn colHid gate cell hidden)

/-- The body's matrix product: [512, 2048] times [2048, 256], one contracted axis. -/
abbrev dotBlk : DotDims S512x2048 S2048x256 S512x256 := dot_S512x2048_S2048x256_S512x256_1_0_0_1_n_n

/-! ## The product's operand indices -/

theorem lhs_row (i : S512x256.Idx) (r : dotBlk.contr.Idx) : (dotBlk.lhsIdx i r 0).val = (i 0).val := by
  unfold DotDims.lhsIdx
  rw [dif_neg (show ¬(0 : Fin S512x2048.rank) ∈ dotBlk.lhsBatch by decide), dif_pos (show (0 : Fin S512x2048.rank) ∈ dotBlk.lhsNonContracting by decide)]
  rfl
theorem lhs_col (i : S512x256.Idx) (r : dotBlk.contr.Idx) : (dotBlk.lhsIdx i r 1).val = (r ⟨0, by decide⟩).val :=
  dotBlk.lhsIdx_val_of_single rfl i r
theorem rhs_row (i : S512x256.Idx) (r : dotBlk.contr.Idx) : (dotBlk.rhsIdx i r 0).val = (r ⟨0, by decide⟩).val :=
  dotBlk.rhsIdx_val_of_single rfl i r
theorem rhs_col (i : S512x256.Idx) (r : dotBlk.contr.Idx) : (dotBlk.rhsIdx i r 1).val = (i 1).val := by
  unfold DotDims.rhsIdx
  rw [dif_neg (show ¬(1 : Fin S2048x256.rank) ∈ dotBlk.rhsBatch by decide), dif_pos (show (1 : Fin S2048x256.rank) ∈ dotBlk.rhsNonContracting by decide)]
  rfl

/-- A block product into a zero accumulator, at `(p, q)`: row `p` of the left block against column `q` of the right. -/
theorem matmul_entry (xa : FVec Ideal S512x2048 .bf16) (wa : FVec Ideal S2048x256 .bf16) (p : Fin 512) (q : Fin 256) :
    matmul (F := Ideal) dotBlk none xa wa (constant (F := Ideal) S512x256 .f32 0x00000000#32) (ix2 p q)
      = ∑ k : Fin 2048, xa (ix2 p k) * wa (ix2 k q) := by
  refine (Ideal.matmul_constant_zero_apply dotBlk none xa wa (ix2 p q)).trans ?_
  rw [← Equiv.sum_comp (contrEquiv1 dotBlk 2048 rfl rfl).symm]
  refine Finset.sum_congr rfl fun k _ => ?_
  have hk := contrEquiv1_symm_val dotBlk 2048 rfl rfl k
  have el : dotBlk.lhsIdx (ix2 p q) ((contrEquiv1 dotBlk 2048 rfl rfl).symm k) = ix2 p k := funext fun a => Fin.ext (by
    match a with
    | ⟨0, _⟩ => exact lhs_row _ _
    | ⟨1, _⟩ => exact (lhs_col _ _).trans hk)
  have er : dotBlk.rhsIdx (ix2 p q) ((contrEquiv1 dotBlk 2048 rfl rfl).symm k) = ix2 k q := funext fun a => Fin.ext (by
    match a with
    | ⟨0, _⟩ => exact (rhs_row _ _).trans hk
    | ⟨1, _⟩ => exact rhs_col _ _)
  rw [el, er]

/-! ## One gate at an entry -/

/-- Two block products and a bias row make the gate of the specification, when the blocks hold the arrays' entries. -/
theorem gate_entry (xa xh : FVec Ideal S512x2048 .bf16) (wa wh : FVec Ideal S2048x256 .bf16) (brow : FVec Ideal S1x256 .f32)
    (X H : SAct.Idx → EReal) (W : SWgt.Idx → EReal) (bias : SBias.Idx → EReal)
    (p : Fin 512) (q : Fin 256) (b : Fin 8192) (n : Fin 2048)
    (hxa : ∀ k : Fin 2048, xa (ix2 p k) = X (ix2 b k)) (hxh : ∀ k : Fin 2048, xh (ix2 p k) = H (ix2 b k))
    (hwa : ∀ k : Fin 2048, wa (ix2 k q) = W (ix2 n (colIn k))) (hwh : ∀ k : Fin 2048, wh (ix2 k q) = W (ix2 n (colHid k)))
    (hb : brow (ix2 (0 : Fin 1) q) = bias (ix1 n)) :
    addf (addf (matmul (F := Ideal) dotBlk none xa wa (constant (F := Ideal) S512x256 .f32 0x00000000#32))
        (matmul (F := Ideal) dotBlk none xh wh (constant (F := Ideal) S512x256 .f32 0x00000000#32)))
      (broadcastTo S512x256 brow broadcasts_S1x256_S512x256) (ix2 p q) = gate X H W bias b n := by
  show (matmul (F := Ideal) dotBlk none xa wa (constant (F := Ideal) S512x256 .f32 0x00000000#32) (ix2 p q)
      + matmul (F := Ideal) dotBlk none xh wh (constant (F := Ideal) S512x256 .f32 0x00000000#32) (ix2 p q))
      + broadcastTo S512x256 brow broadcasts_S1x256_S512x256 (ix2 p q) = _
  rw [matmul_entry, matmul_entry, broadcastTo_1b_ab_apply brow broadcasts_S1x256_S512x256 p q, hb]
  unfold gate
  simp only [hxa, hxh, hwa, hwh]

/-- A one-row load of the bias block reads that row. -/
theorem biasRow_apply (x11 : Vec Ideal S4x256 .f32) (g : Fin 4) (q : Fin 256) (h : ∀ a, (![g.val, 0] : Fin 2 → Nat) a + S1x256.size a ≤ S4x256.size a) :
    View.ld x11 (Rect.unit (s := S4x256) ![g.val, 0] S1x256.size h) (ix2 (0 : Fin 1) q) = x11 (ix2 g q) := by
  show x11 _ = x11 _
  refine congrArg x11 (funext fun a => Fin.ext ?_)
  match a with
  | ⟨0, _⟩ => show g.val + 1 * 0 = g.val; omega
  | ⟨1, _⟩ => show 0 + 1 * q.val = q.val; omega

/-! ## The two stored blocks at an entry -/

variable (x0 x1 : Vec Ideal S512x2048 .bf16) (x2 : Vec Ideal S512x256 .f32)
  (x3 x4 x5 x6 x7 x8 x9 x10 : Vec Ideal S2048x256 .bf16) (x11 : Vec Ideal S4x256 .f32)
  (X H C : SAct.Idx → EReal) (Wf : SWgt.Idx → EReal) (bf : SBias.Idx → EReal) (Wi : SWgt.Idx → EReal) (bi : SBias.Idx → EReal)
  (Wg : SWgt.Idx → EReal) (bg : SBias.Idx → EReal) (Wo : SWgt.Idx → EReal) (bo : SBias.Idx → EReal)
  (p : Fin 512) (q : Fin 256) (b : Fin 8192) (n : Fin 2048)

/-- The cell-state payload at `(p, q)` is the specification's new cell state at `(b, n)`. -/
theorem cellBlock_entry
    (h0 : ∀ k : Fin 2048, x0 (ix2 p k) = X (ix2 b k)) (h1 : ∀ k : Fin 2048, x1 (ix2 p k) = H (ix2 b k)) (h2 : x2 (ix2 p q) = C (ix2 b n))
    (h3 : ∀ k : Fin 2048, x3 (ix2 k q) = Wf (ix2 n (colIn k))) (h4 : ∀ k : Fin 2048, x4 (ix2 k q) = Wf (ix2 n (colHid k)))
    (h5 : ∀ k : Fin 2048, x5 (ix2 k q) = Wi (ix2 n (colIn k))) (h6 : ∀ k : Fin 2048, x6 (ix2 k q) = Wi (ix2 n (colHid k)))
    (h7 : ∀ k : Fin 2048, x7 (ix2 k q) = Wg (ix2 n (colIn k))) (h8 : ∀ k : Fin 2048, x8 (ix2 k q) = Wg (ix2 n (colHid k)))
    (hb0 : x11 (ix2 (0 : Fin 4) q) = bf (ix1 n)) (hb1 : x11 (ix2 (1 : Fin 4) q) = bi (ix1 n)) (hb2 : x11 (ix2 (2 : Fin 4) q) = bg (ix1 n)) :
    k0_pay1 (k0_pay5 x0 x1 x3 x4 (View.ld x11 rBias0)) (k0_pay6 x0 x1 x5 x6 (View.ld x11 rBias1)) (k0_pay7 x0 x7) (k0_pay8 x1 x8)
        (View.ld x11 rBias2) x2 (ix2 p q)
      = cell X H C Wf bf Wi bi Wg bg b n := by
  have gF : k0_pay5 x0 x1 x3 x4 (View.ld x11 rBias0) (ix2 p q) = gate X H Wf bf b n := by
    unfold k0_pay5 k0_pay3 k0_pay4
    simp only [shapeCast_self]
    exact gate_entry x0 x1 x3 x4 _ X H Wf bf p q b n h0 h1 h3 h4 ((biasRow_apply x11 0 q _).trans hb0)
  have gI : k0_pay6 x0 x1 x5 x6 (View.ld x11 rBias1) (ix2 p q) = gate X H Wi bi b n := by
    unfold k0_pay6 k0_pay3 k0_pay4
    simp only [shapeCast_self]
    exact gate_entry x0 x1 x5 x6 _ X H Wi bi p q b n h0 h1 h5 h6 ((biasRow_apply x11 1 q _).trans hb1)
  have gG : addf (addf (k0_pay7 x0 x7) (k0_pay8 x1 x8)) (broadcastTo S512x256 (View.ld x11 rBias2) broadcasts_S1x256_S512x256) (ix2 p q)
      = gate X H Wg bg b n := by
    unfold k0_pay7 k0_pay8 k0_pay3 k0_pay4
    simp only [shapeCast_self]
    exact gate_entry x0 x1 x7 x8 _ X H Wg bg p q b n h0 h1 h7 h8 ((biasRow_apply x11 2 q _).trans hb2)
  unfold k0_pay1
  simp only [shapeCast_self]
  show Ideal.logistic (k0_pay5 x0 x1 x3 x4 (View.ld x11 rBias0) (ix2 p q)) * x2 (ix2 p q)
      + Ideal.logistic (k0_pay6 x0 x1 x5 x6 (View.ld x11 rBias1) (ix2 p q))
        * Ideal.tanh (addf (addf (k0_pay7 x0 x7) (k0_pay8 x1 x8)) (broadcastTo S512x256 (View.ld x11 rBias2) broadcasts_S1x256_S512x256) (ix2 p q)) = _
  rw [gF, gI, gG, h2]
  rfl

/-- The hidden-state payload at `(p, q)` is the specification's new hidden state at `(b, n)`. -/
theorem hiddenBlock_entry
    (h0 : ∀ k : Fin 2048, x0 (ix2 p k) = X (ix2 b k)) (h1 : ∀ k : Fin 2048, x1 (ix2 p k) = H (ix2 b k)) (h2 : x2 (ix2 p q) = C (ix2 b n))
    (h3 : ∀ k : Fin 2048, x3 (ix2 k q) = Wf (ix2 n (colIn k))) (h4 : ∀ k : Fin 2048, x4 (ix2 k q) = Wf (ix2 n (colHid k)))
    (h5 : ∀ k : Fin 2048, x5 (ix2 k q) = Wi (ix2 n (colIn k))) (h6 : ∀ k : Fin 2048, x6 (ix2 k q) = Wi (ix2 n (colHid k)))
    (h7 : ∀ k : Fin 2048, x7 (ix2 k q) = Wg (ix2 n (colIn k))) (h8 : ∀ k : Fin 2048, x8 (ix2 k q) = Wg (ix2 n (colHid k)))
    (h9 : ∀ k : Fin 2048, x9 (ix2 k q) = Wo (ix2 n (colIn k))) (h10 : ∀ k : Fin 2048, x10 (ix2 k q) = Wo (ix2 n (colHid k)))
    (hb0 : x11 (ix2 (0 : Fin 4) q) = bf (ix1 n)) (hb1 : x11 (ix2 (1 : Fin 4) q) = bi (ix1 n)) (hb2 : x11 (ix2 (2 : Fin 4) q) = bg (ix1 n))
    (hb3 : x11 (ix2 (3 : Fin 4) q) = bo (ix1 n)) :
    k0_pay2 (k0_pay3 x0) (k0_pay4 x1) (k0_pay5 x0 x1 x3 x4 (View.ld x11 rBias0)) (k0_pay6 x0 x1 x5 x6 (View.ld x11 rBias1)) (k0_pay7 x0 x7) (k0_pay8 x1 x8)
        (View.ld x11 rBias2) x9 x10 (View.ld x11 rBias3) x2 (ix2 p q)
      = hidden X H C Wf bf Wi bi Wg bg Wo bo b n := by
  have cE := cellBlock_entry x0 x1 x2 x3 x4 x5 x6 x7 x8 x11 X H C Wf bf Wi bi Wg bg p q b n h0 h1 h2 h3 h4 h5 h6 h7 h8 hb0 hb1 hb2
  have gO : addf (addf (matmul (F := Ideal) dotBlk none x0 x9 (constant (F := Ideal) S512x256 .f32 0x00000000#32))
        (matmul (F := Ideal) dotBlk none x1 x10 (constant (F := Ideal) S512x256 .f32 0x00000000#32)))
      (broadcastTo S512x256 (View.ld x11 rBias3) broadcasts_S1x256_S512x256) (ix2 p q) = gate X H Wo bo b n :=
    gate_entry x0 x1 x9 x10 _ X H Wo bo p q b n h0 h1 h9 h10 ((biasRow_apply x11 3 q _).trans hb3)
  unfold k0_pay2 k0_pay3 k0_pay4
  simp only [shapeCast_self]
  show Ideal.logistic (addf (addf (matmul (F := Ideal) dotBlk none x0 x9 (constant (F := Ideal) S512x256 .f32 0x00000000#32))
        (matmul (F := Ideal) dotBlk none x1 x10 (constant (F := Ideal) S512x256 .f32 0x00000000#32)))
      (broadcastTo S512x256 (View.ld x11 rBias3) broadcasts_S1x256_S512x256) (ix2 p q))
      * Ideal.tanh (k0_pay1 (k0_pay5 x0 x1 x3 x4 (View.ld x11 rBias0)) (k0_pay6 x0 x1 x5 x6 (View.ld x11 rBias1)) (k0_pay7 x0 x7) (k0_pay8 x1 x8)
        (View.ld x11 rBias2) x2 (ix2 p q)) = _
  rw [gO, cE]
  rfl

end Cert.KernelIdeal.CellPayload

end
-- ==== Proof.KernelIdealValue.lean ====
/-
  The kernel's two results as whole arrays, at the ideal instance.

  Grid point `t = (I, J)` of the 16 × 8 grid is handed rows `512·I … 512·I + 511` of the input, the previous hidden
  state and (columns `256·J … 256·J + 255` of) the previous cell state, columns `256·J …` of every weight half and
  of the stacked biases, and writes back the [512, 256] blocks at `(I, J)` of the two results. So entry `(p, q)` of
  what it writes back is the specification's value at batch row `b = 512·I + p` and hidden unit `n = 256·J + q`; the
  128 blocks tile each result array, and each result ends as the specification's whole array.
-/
import proofs.«152223_j49160195670661_2_alg».proof.Proof.KernelIdealEntry
import proofs.«152223_j49160195670661_2_alg».proof.Proof.KernelIdealPayload

set_option maxRecDepth 16384

noncomputable section

namespace Cert.KernelIdeal.CellValue

open Cert.KernelIdeal Cert.KernelIdeal.Gen Cert.KernelIdeal.CellFrame Cert.KernelIdeal.CellEntry Cert.KernelIdeal.CellPayload
open Idealize.ShloMosaic Idealize.ShloMosaic.TcCoe Idealize.SL.Sem Idealize.ShloMosaic.ValueIdx
open Idealize.ShloMosaic.Pipeline (Dat)
open Cert.LstmSpec (colIn colHid cell hidden cellArr hiddenArr)

variable (m : (ℓ : Loc nD τ sig) → Buf (Elt Ideal) ℓ) (ρ : Dev nD → PrngReg) (c : Dev nD)

theorem hz : (![0, 0] : Fin 2 → Nat) = fun _ => 0 := funext fun a => by fin_cases a <;> rfl

/-! ## The index maps over the grid -/

/-- Every window's block index at a grid point, against the hidden-state result's `(I, J)`: activations move with
    `I`, weights and biases with `J`, the cell states with both. -/
theorem idx_facts : ∀ t : Fin cfg0.N, win0_0.index t (0 : Fin 2) = win0_12.index t (0 : Fin 2)
    ∧ win0_0.index t (1 : Fin 2) = 0
    ∧ win0_1.index t (0 : Fin 2) = win0_12.index t (0 : Fin 2)
    ∧ win0_1.index t (1 : Fin 2) = 0
    ∧ win0_2.index t (0 : Fin 2) = win0_12.index t (0 : Fin 2)
    ∧ win0_2.index t (1 : Fin 2) = win0_12.index t (1 : Fin 2)
    ∧ win0_3.index t (0 : Fin 2) = 0
    ∧ win0_3.index t (1 : Fin 2) = win0_12.index t (1 : Fin 2)
    ∧ win0_4.index t (0 : Fin 2) = 0
    ∧ win0_4.index t (1 : Fin 2) = win0_12.index t (1 : Fin 2)
    ∧ win0_5.index t (0 : Fin 2) = 0
    ∧ win0_5.index t (1 : Fin 2) = win0_12.index t (1 : Fin 2)
    ∧ win0_6.index t (0 : Fin 2) = 0
    ∧ win0_6.index t (1 : Fin 2) = win0_12.index t (1 : Fin 2)
    ∧ win0_7.index t (0 : Fin 2) = 0
    ∧ win0_7.index t (1 : Fin 2) = win0_12.index t (1 : Fin 2)
    ∧ win0_8.index t (0 : Fin 2) = 0
    ∧ win0_8.index t (1 : Fin 2) = win0_12.index t (1 : Fin 2)
    ∧ win0_9.index t (0 : Fin 2) = 0
    ∧ win0_9.index t (1 : Fin 2) = win0_12.index t (1 : Fin 2)
    ∧ win0_10.index t (0 : Fin 2) = 0
    ∧ win0_10.index t (1 : Fin 2) = win0_12.index t (1 : Fin 2)
    ∧ win0_11.index t (0 : Fin 2) = 0
    ∧ win0_11.index t (1 : Fin 2) = win0_12.index t (1 : Fin 2)
    ∧ win0_13.index t (0 : Fin 2) = win0_12.index t (0 : Fin 2)
    ∧ win0_13.index t (1 : Fin 2) = win0_12.index t (1 : Fin 2)
    ∧ win0_12.index t (0 : Fin 2) ≤ 15
    ∧ win0_12.index t (1 : Fin 2) ≤ 7 :=
  (by decide +kernel : ∀ t : Fin grid0.N, _)

/-- Every block position of a result is some grid point's. -/
theorem idx_onto : ∀ (q0 : Fin 16) (q1 : Fin 8), ∃ t : Fin cfg0.N, win0_12.index t = ![q0.val, q1.val] :=
  (by decide +kernel : ∀ (q0 : Fin 16) (q1 : Fin 8), ∃ t : Fin grid0.N, win0_12.index t = ![q0.val, q1.val])

/-! ## Each input block, read at an entry, is an argument array's entry -/

theorem blk0_apply (t : Fin cfg0.N) (p : Fin 512) (k : Fin 2048) (b : Fin 8192) (hb : b.val = win0_12.index t (0 : Fin 2) * 512 + p.val) :
    iblk m c 0 t (ix2 p k) = m ((c : Thread nD τ).loc main_arg0) (ix2 b k) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v0 (((cfg0.win 0).blk t).view.emb (ix2 p k)) = _
  rw [entry_x, narrowed_apply]
  refine congrArg _ (funext fun a => Fin.ext ?_)
  match a with
  | ⟨0, _⟩ => show win0_0.index t (0 : Fin 2) * 512 + 1 * p.val = b.val; omega
  | ⟨1, _⟩ => show win0_0.index t (1 : Fin 2) * 2048 + 1 * k.val = k.val; omega

theorem blk1_apply (t : Fin cfg0.N) (p : Fin 512) (k : Fin 2048) (b : Fin 8192) (hb : b.val = win0_12.index t (0 : Fin 2) * 512 + p.val) :
    iblk m c 1 t (ix2 p k) = m ((c : Thread nD τ).loc main_arg1) (ix2 b k) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v1 (((cfg0.win 1).blk t).view.emb (ix2 p k)) = _
  rw [entry_h, narrowed_apply]
  refine congrArg _ (funext fun a => Fin.ext ?_)
  match a with
  | ⟨0, _⟩ => show win0_1.index t (0 : Fin 2) * 512 + 1 * p.val = b.val; omega
  | ⟨1, _⟩ => show win0_1.index t (1 : Fin 2) * 2048 + 1 * k.val = k.val; omega

theorem blk2_apply (t : Fin cfg0.N) (p : Fin 512) (q : Fin 256) (b : Fin 8192) (n : Fin 2048)
    (hb : b.val = win0_12.index t (0 : Fin 2) * 512 + p.val) (hn : n.val = win0_12.index t (1 : Fin 2) * 256 + q.val) :
    iblk m c 2 t (ix2 p q) = m ((c : Thread nD τ).loc main_arg2) (ix2 b n) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_arg2 (((cfg0.win 2).blk t).view.emb (ix2 p q)) = _
  rw [V_arg2]
  refine congrArg _ (funext fun a => Fin.ext ?_)
  match a with
  | ⟨0, _⟩ => show win0_2.index t (0 : Fin 2) * 512 + 1 * p.val = b.val; omega
  | ⟨1, _⟩ => show win0_2.index t (1 : Fin 2) * 256 + 1 * q.val = n.val; omega

theorem blk3_apply (t : Fin cfg0.N) (k : Fin 2048) (q : Fin 256) (n : Fin 2048) (hn : n.val = win0_12.index t (1 : Fin 2) * 256 + q.val) :
    iblk m c 3 t (ix2 k q) = m ((c : Thread nD τ).loc main_arg3) (ix2 n (colIn k)) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v4 (((cfg0.win 3).blk t).view.emb (ix2 k q)) = _
  rw [entry_Wf_in]
  refine Eq.trans ?_ (inHalf_apply (m ((c : Thread nD τ).loc main_arg3)) k n)
  refine congrArg _ (funext fun a => Fin.ext ?_)
  match a with
  | ⟨0, _⟩ => show win0_3.index t (0 : Fin 2) * 2048 + 1 * k.val = k.val; omega
  | ⟨1, _⟩ => show win0_3.index t (1 : Fin 2) * 256 + 1 * q.val = n.val; omega

theorem blk4_apply (t : Fin cfg0.N) (k : Fin 2048) (q : Fin 256) (n : Fin 2048) (hn : n.val = win0_12.index t (1 : Fin 2) * 256 + q.val) :
    iblk m c 4 t (ix2 k q) = m ((c : Thread nD τ).loc main_arg3) (ix2 n (colHid k)) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v6 (((cfg0.win 4).blk t).view.emb (ix2 k q)) = _
  rw [entry_Wf_hid]
  refine Eq.trans ?_ (hidHalf_apply (m ((c : Thread nD τ).loc main_arg3)) k n)
  refine congrArg _ (funext fun a => Fin.ext ?_)
  match a with
  | ⟨0, _⟩ => show win0_4.index t (0 : Fin 2) * 2048 + 1 * k.val = k.val; omega
  | ⟨1, _⟩ => show win0_4.index t (1 : Fin 2) * 256 + 1 * q.val = n.val; omega

theorem blk5_apply (t : Fin cfg0.N) (k : Fin 2048) (q : Fin 256) (n : Fin 2048) (hn : n.val = win0_12.index t (1 : Fin 2) * 256 + q.val) :
    iblk m c 5 t (ix2 k q) = m ((c : Thread nD τ).loc main_arg5) (ix2 n (colIn k)) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v9 (((cfg0.win 5).blk t).view.emb (ix2 k q)) = _
  rw [entry_Wi_in]
  refine Eq.trans ?_ (inHalf_apply (m ((c : Thread nD τ).loc main_arg5)) k n)
  refine congrArg _ (funext fun a => Fin.ext ?_)
  match a with
  | ⟨0, _⟩ => show win0_5.index t (0 : Fin 2) * 2048 + 1 * k.val = k.val; omega
  | ⟨1, _⟩ => show win0_5.index t (1 : Fin 2) * 256 + 1 * q.val = n.val; omega

theorem blk6_apply (t : Fin cfg0.N) (k : Fin 2048) (q : Fin 256) (n : Fin 2048) (hn : n.val = win0_12.index t (1 : Fin 2) * 256 + q.val) :
    iblk m c 6 t (ix2 k q) = m ((c : Thread nD τ).loc main_arg5) (ix2 n (colHid k)) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v11 (((cfg0.win 6).blk t).view.emb (ix2 k q)) = _
  rw [entry_Wi_hid]
  refine Eq.trans ?_ (hidHalf_apply (m ((c : Thread nD τ).loc main_arg5)) k n)
  refine congrArg _ (funext fun a => Fin.ext ?_)
  match a with
  | ⟨0, _⟩ => show win0_6.index t (0 : Fin 2) * 2048 + 1 * k.val = k.val; omega
  | ⟨1, _⟩ => show win0_6.index t (1 : Fin 2) * 256 + 1 * q.val = n.val; omega

theorem blk7_apply (t : Fin cfg0.N) (k : Fin 2048) (q : Fin 256) (n : Fin 2048) (hn : n.val = win0_12.index t (1 : Fin 2) * 256 + q.val) :
    iblk m c 7 t (ix2 k q) = m ((c : Thread nD τ).loc main_arg7) (ix2 n (colIn k)) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v14 (((cfg0.win 7).blk t).view.emb (ix2 k q)) = _
  rw [entry_Wg_in]
  refine Eq.trans ?_ (inHalf_apply (m ((c : Thread nD τ).loc main_arg7)) k n)
  refine congrArg _ (funext fun a => Fin.ext ?_)
  match a with
  | ⟨0, _⟩ => show win0_7.index t (0 : Fin 2) * 2048 + 1 * k.val = k.val; omega
  | ⟨1, _⟩ => show win0_7.index t (1 : Fin 2) * 256 + 1 * q.val = n.val; omega

theorem blk8_apply (t : Fin cfg0.N) (k : Fin 2048) (q : Fin 256) (n : Fin 2048) (hn : n.val = win0_12.index t (1 : Fin 2) * 256 + q.val) :
    iblk m c 8 t (ix2 k q) = m ((c : Thread nD τ).loc main_arg7) (ix2 n (colHid k)) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v16 (((cfg0.win 8).blk t).view.emb (ix2 k q)) = _
  rw [entry_Wg_hid]
  refine Eq.trans ?_ (hidHalf_apply (m ((c : Thread nD τ).loc main_arg7)) k n)
  refine congrArg _ (funext fun a => Fin.ext ?_)
  match a with
  | ⟨0, _⟩ => show win0_8.index t (0 : Fin 2) * 2048 + 1 * k.val = k.val; omega
  | ⟨1, _⟩ => show win0_8.index t (1 : Fin 2) * 256 + 1 * q.val = n.val; omega

theorem blk9_apply (t : Fin cfg0.N) (k : Fin 2048) (q : Fin 256) (n : Fin 2048) (hn : n.val = win0_12.index t (1 : Fin 2) * 256 + q.val) :
    iblk m c 9 t (ix2 k q) = m ((c : Thread nD τ).loc main_arg9) (ix2 n (colIn k)) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v19 (((cfg0.win 9).blk t).view.emb (ix2 k q)) = _
  rw [entry_Wo_in]
  refine Eq.trans ?_ (inHalf_apply (m ((c : Thread nD τ).loc main_arg9)) k n)
  refine congrArg _ (funext fun a => Fin.ext ?_)
  match a with
  | ⟨0, _⟩ => show win0_9.index t (0 : Fin 2) * 2048 + 1 * k.val = k.val; omega
  | ⟨1, _⟩ => show win0_9.index t (1 : Fin 2) * 256 + 1 * q.val = n.val; omega

theorem blk10_apply (t : Fin cfg0.N) (k : Fin 2048) (q : Fin 256) (n : Fin 2048) (hn : n.val = win0_12.index t (1 : Fin 2) * 256 + q.val) :
    iblk m c 10 t (ix2 k q) = m ((c : Thread nD τ).loc main_arg9) (ix2 n (colHid k)) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v21 (((cfg0.win 10).blk t).view.emb (ix2 k q)) = _
  rw [entry_Wo_hid]
  refine Eq.trans ?_ (hidHalf_apply (m ((c : Thread nD τ).loc main_arg9)) k n)
  refine congrArg _ (funext fun a => Fin.ext ?_)
  match a with
  | ⟨0, _⟩ => show win0_10.index t (0 : Fin 2) * 2048 + 1 * k.val = k.val; omega
  | ⟨1, _⟩ => show win0_10.index t (1 : Fin 2) * 256 + 1 * q.val = n.val; omega

theorem blk11_row0 (t : Fin cfg0.N) (q : Fin 256) (n : Fin 2048) (hn : n.val = win0_12.index t (1 : Fin 2) * 256 + q.val) :
    iblk m c 11 t (ix2 (0 : Fin 4) q) = m ((c : Thread nD τ).loc main_arg4) (ix1 n) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v26 (((cfg0.win 11).blk t).view.emb (ix2 (0 : Fin 4) q)) = _
  rw [entry_bias]
  refine Eq.trans ?_ (stacked_row (m ((c : Thread nD τ).loc main_arg4)) (m ((c : Thread nD τ).loc main_arg6)) (m ((c : Thread nD τ).loc main_arg8)) (m ((c : Thread nD τ).loc main_arg10)) (m ((c : Thread nD τ).loc main_arg4)) (0 : Fin 4) n rfl)
  refine congrArg _ (funext fun a => Fin.ext ?_)
  match a with
  | ⟨0, _⟩ => show win0_11.index t (0 : Fin 2) * 4 + 1 * 0 = 0; omega
  | ⟨1, _⟩ => show win0_11.index t (1 : Fin 2) * 256 + 1 * q.val = n.val; omega

theorem blk11_row1 (t : Fin cfg0.N) (q : Fin 256) (n : Fin 2048) (hn : n.val = win0_12.index t (1 : Fin 2) * 256 + q.val) :
    iblk m c 11 t (ix2 (1 : Fin 4) q) = m ((c : Thread nD τ).loc main_arg6) (ix1 n) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v26 (((cfg0.win 11).blk t).view.emb (ix2 (1 : Fin 4) q)) = _
  rw [entry_bias]
  refine Eq.trans ?_ (stacked_row (m ((c : Thread nD τ).loc main_arg4)) (m ((c : Thread nD τ).loc main_arg6)) (m ((c : Thread nD τ).loc main_arg8)) (m ((c : Thread nD τ).loc main_arg10)) (m ((c : Thread nD τ).loc main_arg6)) (1 : Fin 4) n rfl)
  refine congrArg _ (funext fun a => Fin.ext ?_)
  match a with
  | ⟨0, _⟩ => show win0_11.index t (0 : Fin 2) * 4 + 1 * 1 = 1; omega
  | ⟨1, _⟩ => show win0_11.index t (1 : Fin 2) * 256 + 1 * q.val = n.val; omega

theorem blk11_row2 (t : Fin cfg0.N) (q : Fin 256) (n : Fin 2048) (hn : n.val = win0_12.index t (1 : Fin 2) * 256 + q.val) :
    iblk m c 11 t (ix2 (2 : Fin 4) q) = m ((c : Thread nD τ).loc main_arg8) (ix1 n) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v26 (((cfg0.win 11).blk t).view.emb (ix2 (2 : Fin 4) q)) = _
  rw [entry_bias]
  refine Eq.trans ?_ (stacked_row (m ((c : Thread nD τ).loc main_arg4)) (m ((c : Thread nD τ).loc main_arg6)) (m ((c : Thread nD τ).loc main_arg8)) (m ((c : Thread nD τ).loc main_arg10)) (m ((c : Thread nD τ).loc main_arg8)) (2 : Fin 4) n rfl)
  refine congrArg _ (funext fun a => Fin.ext ?_)
  match a with
  | ⟨0, _⟩ => show win0_11.index t (0 : Fin 2) * 4 + 1 * 2 = 2; omega
  | ⟨1, _⟩ => show win0_11.index t (1 : Fin 2) * 256 + 1 * q.val = n.val; omega

theorem blk11_row3 (t : Fin cfg0.N) (q : Fin 256) (n : Fin 2048) (hn : n.val = win0_12.index t (1 : Fin 2) * 256 + q.val) :
    iblk m c 11 t (ix2 (3 : Fin 4) q) = m ((c : Thread nD τ).loc main_arg10) (ix1 n) := by
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  show V m c main_v26 (((cfg0.win 11).blk t).view.emb (ix2 (3 : Fin 4) q)) = _
  rw [entry_bias]
  refine Eq.trans ?_ (stacked_row (m ((c : Thread nD τ).loc main_arg4)) (m ((c : Thread nD τ).loc main_arg6)) (m ((c : Thread nD τ).loc main_arg8)) (m ((c : Thread nD τ).loc main_arg10)) (m ((c : Thread nD τ).loc main_arg10)) (3 : Fin 4) n rfl)
  refine congrArg _ (funext fun a => Fin.ext ?_)
  match a with
  | ⟨0, _⟩ => show win0_11.index t (0 : Fin 2) * 4 + 1 * 3 = 3; omega
  | ⟨1, _⟩ => show win0_11.index t (1 : Fin 2) * 256 + 1 * q.val = n.val; omega

/-! ## What a grid point writes back -/

/-- Grid point `t` writes back block `t` of the specification's new hidden state. -/
theorem flushedH_eq (t : Fin cfg0.N) :
    (dats m 0 c).flushed 12 t = ((cfg0.win 12).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 12).cut (grid0.coords t) ((dats m 0 c).after 12 t) = _
  rw [after_12]
  unfold outH
  rw [View.canon_unit_zero hz]
  simp only [View.ld_unit_zero (S := S512x2048) hz, View.ld_unit_zero (S := S2048x256) hz, View.ld_unit_zero (S := S512x256) hz]
  funext y
  obtain ⟨p, q, rfl⟩ : ∃ (p : Fin 512) (q : Fin 256), y = ix2 p q := ⟨y 0, y 1, eq_ix2 y⟩
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  have hp : p.val < 512 := p.isLt
  have hq : q.val < 256 := q.isLt
  let b : Fin 8192 := ⟨win0_12.index t (0 : Fin 2) * 512 + p.val, by omega⟩
  let n : Fin 2048 := ⟨win0_12.index t (1 : Fin 2) * 256 + q.val, by omega⟩
  refine (hiddenBlock_entry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) p q b n
      (fun k => blk0_apply m c t p k b rfl) (fun k => blk1_apply m c t p k b rfl) (blk2_apply m c t p q b n rfl rfl)
      (fun k => blk3_apply m c t k q n rfl) (fun k => blk4_apply m c t k q n rfl) (fun k => blk5_apply m c t k q n rfl) (fun k => blk6_apply m c t k q n rfl)
      (fun k => blk7_apply m c t k q n rfl) (fun k => blk8_apply m c t k q n rfl) (fun k => blk9_apply m c t k q n rfl) (fun k => blk10_apply m c t k q n rfl)
      (blk11_row0 m c t q n rfl) (blk11_row1 m c t q n rfl) (blk11_row2 m c t q n rfl) (blk11_row3 m c t q n rfl)).trans ?_
  show hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b n = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ((((cfg0.win 12).blk t).view.emb (ix2 p q)) 0) ((((cfg0.win 12).blk t).view.emb (ix2 p q)) 1)
  congr 1
  · exact Fin.ext (by show win0_12.index t (0 : Fin 2) * 512 + p.val = win0_12.index t (0 : Fin 2) * 512 + 1 * p.val; omega)
  · exact Fin.ext (by show win0_12.index t (1 : Fin 2) * 256 + q.val = win0_12.index t (1 : Fin 2) * 256 + 1 * q.val; omega)

/-- Grid point `t` writes back block `t` of the specification's new cell state. -/
theorem flushedC_eq (t : Fin cfg0.N) :
    (dats m 0 c).flushed 13 t = ((cfg0.win 13).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 13).cut (grid0.coords t) ((dats m 0 c).after 13 t) = _
  rw [after_13]
  unfold outC
  rw [View.canon_unit_zero hz]
  simp only [View.ld_unit_zero (S := S512x2048) hz, View.ld_unit_zero (S := S2048x256) hz, View.ld_unit_zero (S := S512x256) hz]
  funext y
  obtain ⟨p, q, rfl⟩ : ∃ (p : Fin 512) (q : Fin 256), y = ix2 p q := ⟨y 0, y 1, eq_ix2 y⟩
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  have hp : p.val < 512 := p.isLt
  have hq : q.val < 256 := q.isLt
  let b : Fin 8192 := ⟨win0_12.index t (0 : Fin 2) * 512 + p.val, by omega⟩
  let n : Fin 2048 := ⟨win0_12.index t (1 : Fin 2) * 256 + q.val, by omega⟩
  refine (cellBlock_entry (iblk m c 0 t) (iblk m c 1 t) (iblk m c 2 t) (iblk m c 3 t) (iblk m c 4 t) (iblk m c 5 t) (iblk m c 6 t) (iblk m c 7 t) (iblk m c 8 t) (iblk m c 11 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) p q b n
      (fun k => blk0_apply m c t p k b rfl) (fun k => blk1_apply m c t p k b rfl) (blk2_apply m c t p q b n rfl rfl)
      (fun k => blk3_apply m c t k q n rfl) (fun k => blk4_apply m c t k q n rfl) (fun k => blk5_apply m c t k q n rfl) (fun k => blk6_apply m c t k q n rfl)
      (fun k => blk7_apply m c t k q n rfl) (fun k => blk8_apply m c t k q n rfl)
      (blk11_row0 m c t q n rfl) (blk11_row1 m c t q n rfl) (blk11_row2 m c t q n rfl)).trans ?_
  show cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b n = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ((((cfg0.win 13).blk t).view.emb (ix2 p q)) 0) ((((cfg0.win 13).blk t).view.emb (ix2 p q)) 1)
  congr 1
  · exact Fin.ext (by show win0_12.index t (0 : Fin 2) * 512 + p.val = win0_13.index t (0 : Fin 2) * 512 + 1 * p.val; omega)
  · exact Fin.ext (by show win0_12.index t (1 : Fin 2) * 256 + q.val = win0_13.index t (1 : Fin 2) * 256 + 1 * q.val; omega)

/-! ## The blocks tile the results -/

/-- An index of the array is in point `t`'s block of result h iff each coordinate is in the block's range. -/
theorem mem_blk12 (t : Fin cfg0.N) (i : S8192x2048.Idx) :
    i ∈ ((cfg0.win 12).blk t).view.set ↔ ∀ a : Fin 2, win0_12.index t a * S512x256.size a ≤ (i a).val ∧ (i a).val < win0_12.index t a * S512x256.size a + S512x256.size a := by
  show i ∈ ((View.whole main_v27_0).slice (win0_12.rect t)).set ↔ _
  rw [View.set_slice_whole, Rect.mem_set_unit]
  exact Iff.rfl

/-- Every index of result h lies in the block of the grid point at its row band and column band. -/
theorem cover12 (i : S8192x2048.Idx) : ∃ t : Fin cfg0.N, (cfg0.win 12).flush t = true ∧ i ∈ ((cfg0.win 12).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  have q0 : win0_12.index t (0 : Fin 2) = (i 0).val / 512 := congrFun ht 0
  have q1 : win0_12.index t (1 : Fin 2) = (i 1).val / 256 := congrFun ht 1
  refine ⟨t, flush0_12 t, ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 256 ≤ (i 1).val ∧ (i 1).val < win0_12.index t (1 : Fin 2) * 256 + 256; omega

/-- An index of the array is in point `t`'s block of result c iff each coordinate is in the block's range. -/
theorem mem_blk13 (t : Fin cfg0.N) (i : S8192x2048.Idx) :
    i ∈ ((cfg0.win 13).blk t).view.set ↔ ∀ a : Fin 2, win0_13.index t a * S512x256.size a ≤ (i a).val ∧ (i a).val < win0_13.index t a * S512x256.size a + S512x256.size a := by
  show i ∈ ((View.whole main_v27_1).slice (win0_13.rect t)).set ↔ _
  rw [View.set_slice_whole, Rect.mem_set_unit]
  exact Iff.rfl

/-- Every index of result c lies in the block of the grid point at its row band and column band. -/
theorem cover13 (i : S8192x2048.Idx) : ∃ t : Fin cfg0.N, (cfg0.win 13).flush t = true ∧ i ∈ ((cfg0.win 13).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  obtain ⟨e0r, e0c, e1r, e1c, e2r, e2c, e3r, e3c, e4r, e4c, e5r, e5c, e6r, e6c, e7r, e7c, e8r, e8c, e9r, e9c, e10r, e10c, e11r, e11c, e13r, e13c, hI, hJ⟩ := idx_facts t
  have q0 : win0_12.index t (0 : Fin 2) = (i 0).val / 512 := congrFun ht 0
  have q1 : win0_12.index t (1 : Fin 2) = (i 1).val / 256 := congrFun ht 1
  refine ⟨t, flush0_13 t, ?_⟩
  rw [mem_blk13]
  intro a
  match a with
  | ⟨0, _⟩ => show win0_13.index t (0 : Fin 2) * 512 ≤ (i 0).val ∧ (i 0).val < win0_13.index t (0 : Fin 2) * 512 + 512; omega
  | ⟨1, _⟩ => show win0_13.index t (1 : Fin 2) * 256 ≤ (i 1).val ∧ (i 1).val < win0_13.index t (1 : Fin 2) * 256 + 256; omega

/-! ## The results, and the run -/

/-- After the region the first result array is the specification's new hidden state. -/
theorem finalH : (dats m 0 c).arrAt 12 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 12 _ (fun t _ => flushedH_eq m c t) cover12

/-- After the region the second result array is the specification's new cell state. -/
theorem finalC : (dats m 0 c).arrAt 13 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 13 _ (fun t _ => flushedC_eq m c t) cover13

/-- Every weakly fair execution of the program terminates with both results at the specification's arrays of the
    arguments, and the arguments unchanged. -/
theorem run : θ_run defs (onTc (τ := τ) (main (F := Ideal))) ⟨m, fun _ => 0, ρ⟩ fun r => ∀ c : Dev nD,
      r.2.mem ((c : Thread nD τ).loc main_v27_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v27_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 12).trans (finalH m c), ((h c).1 13).trans (finalC m c),
      ((h c).2 main_arg0 (Pipeline.mem_restRefs_of main_arg0 (by decide) (by decide))).trans (V_arg0 m c),
      ((h c).2 main_arg1 (Pipeline.mem_restRefs_of main_arg1 (by decide) (by decide))).trans (V_arg1 m c),
      ((h c).1 2).trans (((dats m 0 c).arrAt_in 2 rfl _).trans ((A_eq m c 2).trans (V_arg2 m c))),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c)⟩)
    (run_main m ρ)

end Cert.KernelIdeal.CellValue

end
-- ==== Proof.ReferenceValue.lean ====
/-
  What the reference program computes: its two results, index by index, are the LSTM cell step of the specification.

  The program joins the input and the previous hidden state into one row of length 4096, stacks the four gates'
  weight matrices into one of 8192 rows and their biases into one vector of length 8192, takes one matrix product and
  adds the bias: column `c` of that array is the affine form of the stacked weights' row `c`. A sum over the 4096
  columns splits into its two halves; the first half of the joined row is the input and the second the hidden state;
  row `g * 2048 + n` of the stacked weights is row `n` of the `g`-th gate's weights, and likewise the biases. So the
  four column bands of width 2048 are the four gates of the specification, and the rest of the program is the
  specification's formula pointwise, with the logistic function spelt as `1 / (1 + e^(-z))`.
-/
import proofs.«152223_j49160195670661_2_alg».proof.Proof.Gen.ReferenceIdeal.Read
import proofs.«152223_j49160195670661_2_alg».proof.Proof.LstmSpec

noncomputable section

open scoped BigOperators

namespace Cert.ReferenceIdeal.CellValue

open Cert.ReferenceIdeal Cert.ReferenceIdeal.Gen Cert.ReferenceIdeal.Read Idealize.ShloMosaic Idealize.ShloMosaic.ValueIdx
open Cert.LstmSpec (colIn colHid gate cell hidden cellArr hiddenArr)

/-- An activation array: batch by features. -/
abbrev Act : Type := (⟨S8192x2048, .f32⟩ : BufTy).Contents (Elt Ideal)
/-- One gate's weights. -/
abbrev Wgt : Type := (⟨S2048x4096, .f32⟩ : BufTy).Contents (Elt Ideal)
/-- One gate's bias. -/
abbrev Bias : Type := (⟨S2048, .f32⟩ : BufTy).Contents (Elt Ideal)

/-! ## The four bands of the stacked axis -/

/-- Row (or column) `n` of the first band. -/
def band0 (n : Fin 2048) : Fin 8192 := ⟨n.val, by omega⟩
/-- Row (or column) `n` of the second band. -/
def band1 (n : Fin 2048) : Fin 8192 := ⟨2048 + n.val, by omega⟩
/-- Row (or column) `n` of the third band. -/
def band2 (n : Fin 2048) : Fin 8192 := ⟨4096 + n.val, by omega⟩
/-- Row (or column) `n` of the fourth band. -/
def band3 (n : Fin 2048) : Fin 8192 := ⟨6144 + n.val, by omega⟩

/-! ## The three concatenations at an index -/

/-- The first half of the joined row is the input. -/
theorem joined_in (x0 x1 : Act) (b : Fin 8192) (k : Fin 2048) :
    val_main_v0 (F := Ideal) x0 x1 (ix2 b (colIn k)) = x0 (ix2 b k) := by
  unfold val_main_v0
  exact concatenate_pair_apply_left (t := S8192x4096) (s₁ := S8192x2048) (s₂ := S8192x2048) 1 x0 x1
    concatenates_S8192x2048_S8192x2048_S8192x4096_d1 (ix2 b (colIn k)) rfl (ix2 b k) (fun a => by
    match a with
    | ⟨0, _⟩ => rfl
    | ⟨1, _⟩ => rfl)

/-- The second half of the joined row is the previous hidden state. -/
theorem joined_hid (x0 x1 : Act) (b : Fin 8192) (k : Fin 2048) :
    val_main_v0 (F := Ideal) x0 x1 (ix2 b (colHid k)) = x1 (ix2 b k) := by
  unfold val_main_v0
  exact concatenate_pair_apply_right (t := S8192x4096) (s₁ := S8192x2048) (s₂ := S8192x2048) 1 x0 x1
    concatenates_S8192x2048_S8192x2048_S8192x4096_d1 (ix2 b (colHid k)) rfl rfl (ix2 b k)
    (fun a ha => by
      match a with
      | ⟨0, _⟩ => rfl
      | ⟨1, _⟩ => exact absurd rfl ha)
    (by show k.val + 2048 = 2048 + k.val; omega)

/-- Row `n` of the first band of the stacked weights is row `n` of the first gate's. -/
theorem stacked_w0 (x3 x5 x7 x9 : Wgt) (n : Fin 2048) (k : Fin 4096) :
    val_main_v1 (F := Ideal) x3 x5 x7 x9 (ix2 (band0 n) k) = x3 (ix2 n k) := by
  unfold val_main_v1
  exact concatenate_apply_piece (t := S8192x4096) 0
    [⟨S2048x4096, x3⟩, ⟨S2048x4096, x5⟩, ⟨S2048x4096, x7⟩, ⟨S2048x4096, x9⟩]
    concatenates_S2048x4096_S2048x4096_S2048x4096_S2048x4096_S8192x4096_d0 (ix2 (band0 n) k)
    0 (by show (0 : Nat) < 4; omega) S2048x4096 x3 rfl rfl 0 rfl (ix2 n k)
    (fun a ha => by
      match a with
      | ⟨0, _⟩ => exact absurd rfl ha
      | ⟨1, _⟩ => rfl)
    (by show 0 + n.val = n.val; omega)

/-- Row `n` of the second band of the stacked weights is row `n` of the second gate's. -/
theorem stacked_w1 (x3 x5 x7 x9 : Wgt) (n : Fin 2048) (k : Fin 4096) :
    val_main_v1 (F := Ideal) x3 x5 x7 x9 (ix2 (band1 n) k) = x5 (ix2 n k) := by
  unfold val_main_v1
  exact concatenate_apply_piece (t := S8192x4096) 0
    [⟨S2048x4096, x3⟩, ⟨S2048x4096, x5⟩, ⟨S2048x4096, x7⟩, ⟨S2048x4096, x9⟩]
    concatenates_S2048x4096_S2048x4096_S2048x4096_S2048x4096_S8192x4096_d0 (ix2 (band1 n) k)
    1 (by show (1 : Nat) < 4; omega) S2048x4096 x5 rfl rfl 2048 rfl (ix2 n k)
    (fun a ha => by
      match a with
      | ⟨0, _⟩ => exact absurd rfl ha
      | ⟨1, _⟩ => rfl)
    (by show 2048 + n.val = 2048 + n.val; omega)

/-- Row `n` of the third band of the stacked weights is row `n` of the third gate's. -/
theorem stacked_w2 (x3 x5 x7 x9 : Wgt) (n : Fin 2048) (k : Fin 4096) :
    val_main_v1 (F := Ideal) x3 x5 x7 x9 (ix2 (band2 n) k) = x7 (ix2 n k) := by
  unfold val_main_v1
  exact concatenate_apply_piece (t := S8192x4096) 0
    [⟨S2048x4096, x3⟩, ⟨S2048x4096, x5⟩, ⟨S2048x4096, x7⟩, ⟨S2048x4096, x9⟩]
    concatenates_S2048x4096_S2048x4096_S2048x4096_S2048x4096_S8192x4096_d0 (ix2 (band2 n) k)
    2 (by show (2 : Nat) < 4; omega) S2048x4096 x7 rfl rfl 4096 rfl (ix2 n k)
    (fun a ha => by
      match a with
      | ⟨0, _⟩ => exact absurd rfl ha
      | ⟨1, _⟩ => rfl)
    (by show 4096 + n.val = 4096 + n.val; omega)

/-- Row `n` of the fourth band of the stacked weights is row `n` of the fourth gate's. -/
theorem stacked_w3 (x3 x5 x7 x9 : Wgt) (n : Fin 2048) (k : Fin 4096) :
    val_main_v1 (F := Ideal) x3 x5 x7 x9 (ix2 (band3 n) k) = x9 (ix2 n k) := by
  unfold val_main_v1
  exact concatenate_apply_piece (t := S8192x4096) 0
    [⟨S2048x4096, x3⟩, ⟨S2048x4096, x5⟩, ⟨S2048x4096, x7⟩, ⟨S2048x4096, x9⟩]
    concatenates_S2048x4096_S2048x4096_S2048x4096_S2048x4096_S8192x4096_d0 (ix2 (band3 n) k)
    3 (by show (3 : Nat) < 4; omega) S2048x4096 x9 rfl rfl 6144 rfl (ix2 n k)
    (fun a ha => by
      match a with
      | ⟨0, _⟩ => exact absurd rfl ha
      | ⟨1, _⟩ => rfl)
    (by show 6144 + n.val = 6144 + n.val; omega)

/-- Entry `n` of the first band of the stacked biases is entry `n` of the first gate's. -/
theorem stacked_b0 (x4 x6 x8 x10 : Bias) (n : Fin 2048) :
    val_main_v2 (F := Ideal) x4 x6 x8 x10 (ix1 (band0 n)) = x4 (ix1 n) := by
  unfold val_main_v2
  exact concatenate_apply_piece (t := S8192) 0
    [⟨S2048, x4⟩, ⟨S2048, x6⟩, ⟨S2048, x8⟩, ⟨S2048, x10⟩]
    concatenates_S2048_S2048_S2048_S2048_S8192_d0 (ix1 (band0 n))
    0 (by show (0 : Nat) < 4; omega) S2048 x4 rfl rfl 0 rfl (ix1 n)
    (fun a ha => by
      match a with
      | ⟨0, _⟩ => exact absurd rfl ha)
    (by show 0 + n.val = n.val; omega)

/-- Entry `n` of the second band of the stacked biases is entry `n` of the second gate's. -/
theorem stacked_b1 (x4 x6 x8 x10 : Bias) (n : Fin 2048) :
    val_main_v2 (F := Ideal) x4 x6 x8 x10 (ix1 (band1 n)) = x6 (ix1 n) := by
  unfold val_main_v2
  exact concatenate_apply_piece (t := S8192) 0
    [⟨S2048, x4⟩, ⟨S2048, x6⟩, ⟨S2048, x8⟩, ⟨S2048, x10⟩]
    concatenates_S2048_S2048_S2048_S2048_S8192_d0 (ix1 (band1 n))
    1 (by show (1 : Nat) < 4; omega) S2048 x6 rfl rfl 2048 rfl (ix1 n)
    (fun a ha => by
      match a with
      | ⟨0, _⟩ => exact absurd rfl ha)
    (by show 2048 + n.val = 2048 + n.val; omega)

/-- Entry `n` of the third band of the stacked biases is entry `n` of the third gate's. -/
theorem stacked_b2 (x4 x6 x8 x10 : Bias) (n : Fin 2048) :
    val_main_v2 (F := Ideal) x4 x6 x8 x10 (ix1 (band2 n)) = x8 (ix1 n) := by
  unfold val_main_v2
  exact concatenate_apply_piece (t := S8192) 0
    [⟨S2048, x4⟩, ⟨S2048, x6⟩, ⟨S2048, x8⟩, ⟨S2048, x10⟩]
    concatenates_S2048_S2048_S2048_S2048_S8192_d0 (ix1 (band2 n))
    2 (by show (2 : Nat) < 4; omega) S2048 x8 rfl rfl 4096 rfl (ix1 n)
    (fun a ha => by
      match a with
      | ⟨0, _⟩ => exact absurd rfl ha)
    (by show 4096 + n.val = 4096 + n.val; omega)

/-- Entry `n` of the fourth band of the stacked biases is entry `n` of the fourth gate's. -/
theorem stacked_b3 (x4 x6 x8 x10 : Bias) (n : Fin 2048) :
    val_main_v2 (F := Ideal) x4 x6 x8 x10 (ix1 (band3 n)) = x10 (ix1 n) := by
  unfold val_main_v2
  exact concatenate_apply_piece (t := S8192) 0
    [⟨S2048, x4⟩, ⟨S2048, x6⟩, ⟨S2048, x8⟩, ⟨S2048, x10⟩]
    concatenates_S2048_S2048_S2048_S2048_S8192_d0 (ix1 (band3 n))
    3 (by show (3 : Nat) < 4; omega) S2048 x10 rfl rfl 6144 rfl (ix1 n)
    (fun a ha => by
      match a with
      | ⟨0, _⟩ => exact absurd rfl ha)
    (by show 6144 + n.val = 6144 + n.val; omega)

/-! ## One column of the product-plus-bias array -/

/-- Column `c` of the array of all gates, at batch row `b`: the affine form of the stacked weights' row `c`, its
    sum over the 4096 columns split into the input half and the hidden-state half. -/
theorem gates_apply (x0 x1 : Act) (x3 : Wgt) (x4 : Bias) (x5 : Wgt) (x6 : Bias) (x7 : Wgt) (x8 : Bias) (x9 : Wgt) (x10 : Bias)
    (b c : Fin 8192) :
    val_main_v7 (F := Ideal) x0 x1 x3 x4 x5 x6 x7 x8 x9 x10 (ix2 b c) =
      (∑ k : Fin 2048, x0 (ix2 b k) * val_main_v1 (F := Ideal) x3 x5 x7 x9 (ix2 c (colIn k))
        + ∑ k : Fin 2048, x1 (ix2 b k) * val_main_v1 (F := Ideal) x3 x5 x7 x9 (ix2 c (colHid k)))
      + val_main_v2 (F := Ideal) x4 x6 x8 x10 (ix1 c) := by
  have hl : ∀ k : Fin 4096, lidx_main_v4 (ix2 b c) k = ix2 b k := fun k => funext fun a => by
    match a with
    | ⟨0, _⟩ => rfl
    | ⟨1, _⟩ => rfl
  have hr : ∀ k : Fin 4096, idx_main_v3 (ridx_main_v4 (ix2 b c) k) = ix2 c k := fun k => funext fun a => by
    match a with
    | ⟨0, _⟩ => rfl
    | ⟨1, _⟩ => rfl
  have hb : idx_main_v5 (idx_main_v6 (ix2 b c)) = ix1 c := funext fun a => by
    match a with
    | ⟨0, _⟩ => rfl
  rw [val_main_v7_apply, val_main_v4_apply, val_main_v6_apply, val_main_v5_apply, hb, Ideal.addf_def]
  simp only [val_main_v3_apply, hl, hr]
  rw [Cert.LstmSpec.sum_halves]
  simp only [joined_in, joined_hid]

/-! ## The four column bands are the four gates -/

/-- The first band of width 2048, at `(b, n)`, is the specification's gate with the first weights and bias. -/
theorem band0_eq (x0 x1 : Act) (x3 : Wgt) (x4 : Bias) (x5 : Wgt) (x6 : Bias) (x7 : Wgt) (x8 : Bias) (x9 : Wgt) (x10 : Bias)
    (b : Fin 8192) (n : Fin 2048) :
    val_main_v8 (F := Ideal) x0 x1 x3 x4 x5 x6 x7 x8 x9 x10 (ix2 b n) = gate x0 x1 x3 x4 b n := by
  have hs : idx_main_v8 (ix2 b n) = ix2 b (band0 n) := funext fun a => by
    match a with
    | ⟨0, _⟩ => rfl
    | ⟨1, _⟩ => rfl
  rw [val_main_v8_apply, hs, gates_apply]
  simp only [stacked_w0, stacked_b0]
  rfl

/-- The second band of width 2048, at `(b, n)`, is the specification's gate with the second weights and bias. -/
theorem band1_eq (x0 x1 : Act) (x3 : Wgt) (x4 : Bias) (x5 : Wgt) (x6 : Bias) (x7 : Wgt) (x8 : Bias) (x9 : Wgt) (x10 : Bias)
    (b : Fin 8192) (n : Fin 2048) :
    val_main_v9 (F := Ideal) x0 x1 x3 x4 x5 x6 x7 x8 x9 x10 (ix2 b n) = gate x0 x1 x5 x6 b n := by
  have hs : idx_main_v9 (ix2 b n) = ix2 b (band1 n) := funext fun a => by
    match a with
    | ⟨0, _⟩ => rfl
    | ⟨1, _⟩ => rfl
  rw [val_main_v9_apply, hs, gates_apply]
  simp only [stacked_w1, stacked_b1]
  rfl

/-- The third band of width 2048, at `(b, n)`, is the specification's gate with the third weights and bias. -/
theorem band2_eq (x0 x1 : Act) (x3 : Wgt) (x4 : Bias) (x5 : Wgt) (x6 : Bias) (x7 : Wgt) (x8 : Bias) (x9 : Wgt) (x10 : Bias)
    (b : Fin 8192) (n : Fin 2048) :
    val_main_v10 (F := Ideal) x0 x1 x3 x4 x5 x6 x7 x8 x9 x10 (ix2 b n) = gate x0 x1 x7 x8 b n := by
  have hs : idx_main_v10 (ix2 b n) = ix2 b (band2 n) := funext fun a => by
    match a with
    | ⟨0, _⟩ => rfl
    | ⟨1, _⟩ => rfl
  rw [val_main_v10_apply, hs, gates_apply]
  simp only [stacked_w2, stacked_b2]
  rfl

/-- The fourth band of width 2048, at `(b, n)`, is the specification's gate with the fourth weights and bias. -/
theorem band3_eq (x0 x1 : Act) (x3 : Wgt) (x4 : Bias) (x5 : Wgt) (x6 : Bias) (x7 : Wgt) (x8 : Bias) (x9 : Wgt) (x10 : Bias)
    (b : Fin 8192) (n : Fin 2048) :
    val_main_v11 (F := Ideal) x0 x1 x3 x4 x5 x6 x7 x8 x9 x10 (ix2 b n) = gate x0 x1 x9 x10 b n := by
  have hs : idx_main_v11 (ix2 b n) = ix2 b (band3 n) := funext fun a => by
    match a with
    | ⟨0, _⟩ => rfl
    | ⟨1, _⟩ => rfl
  rw [val_main_v11_apply, hs, gates_apply]
  simp only [stacked_w3, stacked_b3]
  rfl

/-! ## The two results -/

/-- The literal one, spread over the whole array, is one at every index. -/
theorem one_apply (i : S8192x2048.Idx) :
    val_main_v14 (F := Ideal) i = 1 ∧ val_main_v16 (F := Ideal) i = 1 ∧ val_main_v20 (F := Ideal) i = 1 ∧
      val_main_v22 (F := Ideal) i = 1 ∧ val_main_v27 (F := Ideal) i = 1 ∧ val_main_v29 (F := Ideal) i = 1 := by
  refine ⟨?_, ?_, ?_, ?_, ?_, ?_⟩
  · rw [val_main_v14_apply, val_main_cst_apply, Ideal.ofBits_def, Cert.LstmSpec.ofBits_one]
  · rw [val_main_v16_apply, val_main_cst_0_apply, Ideal.ofBits_def, Cert.LstmSpec.ofBits_one]
  · rw [val_main_v20_apply, val_main_cst_1_apply, Ideal.ofBits_def, Cert.LstmSpec.ofBits_one]
  · rw [val_main_v22_apply, val_main_cst_2_apply, Ideal.ofBits_def, Cert.LstmSpec.ofBits_one]
  · rw [val_main_v27_apply, val_main_cst_3_apply, Ideal.ofBits_def, Cert.LstmSpec.ofBits_one]
  · rw [val_main_v29_apply, val_main_cst_4_apply, Ideal.ofBits_def, Cert.LstmSpec.ofBits_one]

/-- The forget gate after its logistic function. -/
theorem forget_apply (x0 x1 : Act) (x3 : Wgt) (x4 : Bias) (x5 : Wgt) (x6 : Bias) (x7 : Wgt) (x8 : Bias) (x9 : Wgt) (x10 : Bias)
    (b : Fin 8192) (n : Fin 2048) :
    val_main_v17 (F := Ideal) x0 x1 x3 x4 x5 x6 x7 x8 x9 x10 (ix2 b n) = Ideal.logistic (gate x0 x1 x3 x4 b n) := by
  rw [val_main_v17_apply, val_main_v15_apply, val_main_v13_apply, val_main_v12_apply, band0_eq,
    (one_apply _).1, (one_apply _).2.1]
  exact Cert.LstmSpec.logistic_expanded _

/-- The input gate after its logistic function. -/
theorem input_apply (x0 x1 : Act) (x3 : Wgt) (x4 : Bias) (x5 : Wgt) (x6 : Bias) (x7 : Wgt) (x8 : Bias) (x9 : Wgt) (x10 : Bias)
    (b : Fin 8192) (n : Fin 2048) :
    val_main_v23 (F := Ideal) x0 x1 x3 x4 x5 x6 x7 x8 x9 x10 (ix2 b n) = Ideal.logistic (gate x0 x1 x5 x6 b n) := by
  rw [val_main_v23_apply, val_main_v21_apply, val_main_v19_apply, val_main_v18_apply, band1_eq,
    (one_apply _).2.2.1, (one_apply _).2.2.2.1]
  exact Cert.LstmSpec.logistic_expanded _

/-- The candidate after its hyperbolic tangent. -/
theorem candidate_apply (x0 x1 : Act) (x3 : Wgt) (x4 : Bias) (x5 : Wgt) (x6 : Bias) (x7 : Wgt) (x8 : Bias) (x9 : Wgt) (x10 : Bias)
    (b : Fin 8192) (n : Fin 2048) :
    val_main_v24 (F := Ideal) x0 x1 x3 x4 x5 x6 x7 x8 x9 x10 (ix2 b n) = Ideal.tanh (gate x0 x1 x7 x8 b n) := by
  rw [val_main_v24_apply, band2_eq]
  rfl

/-- The output gate after its logistic function. -/
theorem output_apply (x0 x1 : Act) (x3 : Wgt) (x4 : Bias) (x5 : Wgt) (x6 : Bias) (x7 : Wgt) (x8 : Bias) (x9 : Wgt) (x10 : Bias)
    (b : Fin 8192) (n : Fin 2048) :
    val_main_v30 (F := Ideal) x0 x1 x3 x4 x5 x6 x7 x8 x9 x10 (ix2 b n) = Ideal.logistic (gate x0 x1 x9 x10 b n) := by
  rw [val_main_v30_apply, val_main_v28_apply, val_main_v26_apply, val_main_v25_apply, band3_eq,
    (one_apply _).2.2.2.2.1, (one_apply _).2.2.2.2.2]
  exact Cert.LstmSpec.logistic_expanded _

/-- The new cell state at `(b, n)`. -/
theorem cell_apply (x0 x1 x2 : Act) (x3 : Wgt) (x4 : Bias) (x5 : Wgt) (x6 : Bias) (x7 : Wgt) (x8 : Bias) (x9 : Wgt) (x10 : Bias)
    (b : Fin 8192) (n : Fin 2048) :
    val_main_v33 (F := Ideal) x0 x1 x2 x3 x4 x5 x6 x7 x8 x9 x10 (ix2 b n) = cell x0 x1 x2 x3 x4 x5 x6 x7 x8 b n := by
  rw [val_main_v33_apply, val_main_v31_apply, val_main_v32_apply, forget_apply, input_apply, candidate_apply]
  rfl

/-- The program's second result is the specification's new cell state. -/
theorem cell_eq (x0 x1 x2 : Act) (x3 : Wgt) (x4 : Bias) (x5 : Wgt) (x6 : Bias) (x7 : Wgt) (x8 : Bias) (x9 : Wgt) (x10 : Bias) :
    val_main_v33 (F := Ideal) x0 x1 x2 x3 x4 x5 x6 x7 x8 x9 x10 = cellArr x0 x1 x2 x3 x4 x5 x6 x7 x8 := by
  funext i
  obtain ⟨b, n, rfl⟩ : ∃ (b : Fin 8192) (n : Fin 2048), i = ix2 b n := ⟨i 0, i 1, eq_ix2 i⟩
  exact cell_apply x0 x1 x2 x3 x4 x5 x6 x7 x8 x9 x10 b n

/-- The program's first result is the specification's new hidden state. -/
theorem hidden_eq (x0 x1 x2 : Act) (x3 : Wgt) (x4 : Bias) (x5 : Wgt) (x6 : Bias) (x7 : Wgt) (x8 : Bias) (x9 : Wgt) (x10 : Bias) :
    val_main_v35 (F := Ideal) x0 x1 x2 x3 x4 x5 x6 x7 x8 x9 x10 = hiddenArr x0 x1 x2 x3 x4 x5 x6 x7 x8 x9 x10 := by
  funext i
  obtain ⟨b, n, rfl⟩ : ∃ (b : Fin 8192) (n : Fin 2048), i = ix2 b n := ⟨i 0, i 1, eq_ix2 i⟩
  rw [val_main_v35_apply, val_main_v34_apply, output_apply, cell_apply]
  rfl

end Cert.ReferenceIdeal.CellValue

end
-- ==== Proof.lean ====
/-
  One step of an LSTM cell, computed two ways, gives the same two arrays on the extended reals.

  The kernel splits every gate's weight matrix into its input half and its hidden-state half and, block by block
  over a 16 × 8 grid, adds the product of the input with the one half to the product of the previous hidden state
  with the other, then the bias; the reference joins input and hidden state into one row of length 4096, stacks the
  four gates' weights and biases, takes one product and cuts the result into the four gates. Entry by entry the two
  are the same sum, split at position 2048 (addition on the extended reals is commutative and associative, so the
  split needs no finiteness), followed by the same logistic functions and hyperbolic tangents and the same
  combination with the previous cell state — the logistic function being, by definition, the quotient
  `1 / (1 + e^(-z))` that the reference spells out. Both results therefore are the specification's arrays
  (Proof/LstmSpec.lean): the kernel's by Proof/KernelIdealValue.lean, the reference's by Proof/ReferenceValue.lean.
  Each program also runs to the end without fault and leaves its arguments unchanged (the kernels' frames are
  Proof/KernelFrame.lean and Proof/KernelIdealFrame.lean; the reference's is its run with the results dropped),
  and the idealized kernel is the kernel's own text read at the ideal instance, no operation rewritten.
-/
import proofs.«152223_j49160195670661_2_alg».proof.Defs
import proofs.«152223_j49160195670661_2_alg».proof.Proof.Gen.Kernel
import proofs.«152223_j49160195670661_2_alg».proof.Proof.Gen.KernelIdeal
import proofs.«152223_j49160195670661_2_alg».proof.Proof.Gen.ReferenceIdeal
import proofs.«152223_j49160195670661_2_alg».proof.Proof.Gen.Pre_finite_inputs
import proofs.«152223_j49160195670661_2_alg».proof.Proof.KernelFrame
import proofs.«152223_j49160195670661_2_alg».proof.Proof.KernelIdealValue
import proofs.«152223_j49160195670661_2_alg».proof.Proof.ReferenceValue
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts,
  -- the kernel as printed runs and keeps its arguments
  fun m ρ _ => Cert.Kernel.CellFrame.frame m ρ,
  -- so does the idealized kernel
  fun m ρ _ => Cert.KernelIdeal.CellFrame.frame m ρ,
  -- and the reference: its run, the results dropped
  fun m ρ _ => (θ_run Cert.ReferenceIdeal.defs _ _).mono (fun _ h c => (h c).2.2) (Cert.ReferenceIdeal.Value.run (F := Ideal) m ρ),
  -- the ideal pass rewrote nothing
  trivial,
  -- both idealized programs end at the specification's arrays of arguments that agree
  by
    intro m ρ m' ρ' _ hagree
    refine ⟨_, _, Cert.KernelIdeal.CellValue.run m ρ, ?_⟩
    refine (θ_run Cert.ReferenceIdeal.defs _ _).mono (fun _ h c => ?_) (Cert.ReferenceIdeal.Value.run (F := Ideal) m' ρ')
    obtain ⟨a0, a1, a2, a3, a4, a5, a6, a7, a8, a9, a10⟩ := hagree c
    obtain ⟨hH, hC, hk⟩ := h c
    refine ⟨hH.trans ?_, hC.trans ?_, hk⟩
    · rw [Cert.ReferenceIdeal.Read.val_main_v35_eq, Cert.ReferenceIdeal.CellValue.hidden_eq, a0, a1, a2, a3, a4, a5, a6, a7, a8, a9, a10]
    · refine ((Cert.ReferenceIdeal.Read.val_main_v33_eq _ _ _ _ _ _ _ _ _ _ _).trans
        (Cert.ReferenceIdeal.CellValue.cell_eq _ _ _ _ _ _ _ _ _ _ _)).trans ?_
      rw [a0, a1, a2, a3, a4, a5, a6, a7, a8]⟩

end Cert.Proof

end
